-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x56x56 : Shape := ⟨4, ![8, 128, 56, 56]⟩
abbrev S8x64x112x112 : Shape := ⟨4, ![8, 64, 112, 112]⟩
abbrev S8x32x224x224 : Shape := ⟨4, ![8, 32, 224, 224]⟩
abbrev S8x16x448x448 : Shape := ⟨4, ![8, 16, 448, 448]⟩
abbrev S8x256x28x28 : Shape := ⟨4, ![8, 256, 28, 28]⟩
abbrev S_ : Shape := ⟨0, ![]⟩

class Facts : Prop where
  bcast_S_S8x128x56x56 : S_.BroadcastsInDim S8x128x56x56 (![] : Fin 0 → Fin S8x128x56x56.rank)
  reducesTo_S8x128x56x56_S_d0_1_2_3 : S8x128x56x56.ReducesTo [0, 1, 2, 3] S_
  h_S_ : 0 < S_.numel
  bcast_S_S8x64x112x112 : S_.BroadcastsInDim S8x64x112x112 (![] : Fin 0 → Fin S8x64x112x112.rank)
  reducesTo_S8x64x112x112_S_d0_1_2_3 : S8x64x112x112.ReducesTo [0, 1, 2, 3] S_
  bcast_S_S8x32x224x224 : S_.BroadcastsInDim S8x32x224x224 (![] : Fin 0 → Fin S8x32x224x224.rank)
  reducesTo_S8x32x224x224_S_d0_1_2_3 : S8x32x224x224.ReducesTo [0, 1, 2, 3] S_
  bcast_S_S8x16x448x448 : S_.BroadcastsInDim S8x16x448x448 (![] : Fin 0 → Fin S8x16x448x448.rank)
  reducesTo_S8x16x448x448_S_d0_1_2_3 : S8x16x448x448.ReducesTo [0, 1, 2, 3] S_
  bcast_S_S8x256x28x28 : S_.BroadcastsInDim S8x256x28x28 (![] : Fin 0 → Fin S8x256x28x28.rank)
  reducesTo_S8x256x28x28_S_d0_1_2_3 : S8x256x28x28.ReducesTo [0, 1, 2, 3] S_

variable [Facts]

def fn_part1 {F : FTy → Type} [FloatOps F] (main_arg4 : FVec F S8x256x28x28 .f32) (main_v13 : IVec S_ 1) (main_v16 : IVec S8x16x448x448 1) : IVec S_ 1 :=
  let main_c_5 : IVec S_ 1 := constantI S_ 1 1#1
  let main_v17 : IVec S_ 1 := (fun x v => Host.reduce IntOp.andi x v reducesTo_S8x16x448x448_S_d0_1_2_3 h_S_) main_v16 main_c_5
  let main_v18 : IVec S_ 1 := andi main_v13 main_v17
  let main_v19 : FVec F S8x256x28x28 .f32 := Host.absf main_arg4
  let main_cst_6 : FVec F S_ .f32 := constant S_ .f32 0x7F800000#32
  let main_v20 : FVec F S8x256x28x28 .f32 := broadcastInDim S8x256x28x28 ![] bcast_S_S8x256x28x28 main_cst_6
  let main_v21 : IVec S8x256x28x28 1 := cmpf .olt main_v19 main_v20
  let main_c_7 : IVec S_ 1 := constantI S_ 1 1#1
  let main_v22 : IVec S_ 1 := (fun x v => Host.reduce IntOp.andi x v reducesTo_S8x256x28x28_S_d0_1_2_3 h_S_) main_v21 main_c_7
  let main_v23 : IVec S_ 1 := andi main_v18 main_v22
  main_v23

def fn {F : FTy → Type} [FloatOps F] (main_arg0 : FVec F S8x128x56x56 .f32) (main_arg1 : FVec F S8x64x112x112 .f32) (main_arg2 : FVec F S8x32x224x224 .f32) (main_arg3 : FVec F S8x16x448x448 .f32) (main_arg4 : FVec F S8x256x28x28 .f32) : IVec S_ 1 :=
  let main_v0 : FVec F S8x128x56x56 .f32 := Host.absf main_arg0
  let main_cst : FVec F S_ .f32 := constant S_ .f32 0x7F800000#32
  let main_v1 : FVec F S8x128x56x56 .f32 := broadcastInDim S8x128x56x56 ![] bcast_S_S8x128x56x56 main_cst
  let main_v2 : IVec S8x128x56x56 1 := cmpf .olt main_v0 main_v1
  let main_c : IVec S_ 1 := constantI S_ 1 1#1
  let main_v3 : IVec S_ 1 := (fun x v => Host.reduce IntOp.andi x v reducesTo_S8x128x56x56_S_d0_1_2_3 h_S_) main_v2 main_c
  let main_v4 : FVec F S8x64x112x112 .f32 := Host.absf main_arg1
  let main_cst_0 : FVec F S_ .f32 := constant S_ .f32 0x7F800000#32
  let main_v5 : FVec F S8x64x112x112 .f32 := broadcastInDim S8x64x112x112 ![] bcast_S_S8x64x112x112 main_cst_0
  let main_v6 : IVec S8x64x112x112 1 := cmpf .olt main_v4 main_v5
  let main_c_1 : IVec S_ 1 := constantI S_ 1 1#1
  let main_v7 : IVec S_ 1 := (fun x v => Host.reduce IntOp.andi x v reducesTo_S8x64x112x112_S_d0_1_2_3 h_S_) main_v6 main_c_1
  let main_v8 : IVec S_ 1 := andi main_v3 main_v7
  let main_v9 : FVec F S8x32x224x224 .f32 := Host.absf main_arg2
  let main_cst_2 : FVec F S_ .f32 := constant S_ .f32 0x7F800000#32
  let main_v10 : FVec F S8x32x224x224 .f32 := broadcastInDim S8x32x224x224 ![] bcast_S_S8x32x224x224 main_cst_2
  let main_v11 : IVec S8x32x224x224 1 := cmpf .olt main_v9 main_v10
  let main_c_3 : IVec S_ 1 := constantI S_ 1 1#1
  let main_v12 : IVec S_ 1 := (fun x v => Host.reduce IntOp.andi x v reducesTo_S8x32x224x224_S_d0_1_2_3 h_S_) main_v11 main_c_3
  let main_v13 : IVec S_ 1 := andi main_v8 main_v12
  let main_v14 : FVec F S8x16x448x448 .f32 := Host.absf main_arg3
  let main_cst_4 : FVec F S_ .f32 := constant S_ .f32 0x7F800000#32
  let main_v15 : FVec F S8x16x448x448 .f32 := broadcastInDim S8x16x448x448 ![] bcast_S_S8x16x448x448 main_cst_4
  let main_v16 : IVec S8x16x448x448 1 := cmpf .olt main_v14 main_v15
  fn_part1 (F := F) main_arg4 main_v13 main_v16
-- ==== Kernel.lean ====
abbrev S8x128x56x56 : Shape := ⟨4, ![8, 128, 56, 56]⟩
abbrev S8x64x112x112 : Shape := ⟨4, ![8, 64, 112, 112]⟩
abbrev S8x32x224x224 : Shape := ⟨4, ![8, 32, 224, 224]⟩
abbrev S8x16x448x448 : Shape := ⟨4, ![8, 16, 448, 448]⟩
abbrev S8x256x28x28 : Shape := ⟨4, ![8, 256, 28, 28]⟩
abbrev S8x128x28x28 : Shape := ⟨4, ![8, 128, 28, 28]⟩
abbrev S1x128x56x56 : Shape := ⟨4, ![1, 128, 56, 56]⟩
abbrev S1x128x28x28 : Shape := ⟨4, ![1, 128, 28, 28]⟩
abbrev S128x56x56 : Shape := ⟨3, ![128, 56, 56]⟩
abbrev S128x56x28x2 : Shape := ⟨4, ![128, 56, 28, 2]⟩
abbrev S128x56x28 : Shape := ⟨3, ![128, 56, 28]⟩
abbrev S128x28x2x28 : Shape := ⟨4, ![128, 28, 2, 28]⟩
abbrev S128x28x28 : Shape := ⟨3, ![128, 28, 28]⟩
abbrev S8x64x28x28 : Shape := ⟨4, ![8, 64, 28, 28]⟩
abbrev S1x64x112x112 : Shape := ⟨4, ![1, 64, 112, 112]⟩
abbrev S1x64x28x28 : Shape := ⟨4, ![1, 64, 28, 28]⟩
abbrev S64x112x112 : Shape := ⟨3, ![64, 112, 112]⟩
abbrev S64x112x56x2 : Shape := ⟨4, ![64, 112, 56, 2]⟩
abbrev S64x112x56 : Shape := ⟨3, ![64, 112, 56]⟩
abbrev S64x112x28x2 : Shape := ⟨4, ![64, 112, 28, 2]⟩
abbrev S64x112x28 : Shape := ⟨3, ![64, 112, 28]⟩
abbrev S64x56x2x28 : Shape := ⟨4, ![64, 56, 2, 28]⟩
abbrev S64x56x28 : Shape := ⟨3, ![64, 56, 28]⟩
abbrev S64x28x2x28 : Shape := ⟨4, ![64, 28, 2, 28]⟩
abbrev S64x28x28 : Shape := ⟨3, ![64, 28, 28]⟩
abbrev S8x32x28x28 : Shape := ⟨4, ![8, 32, 28, 28]⟩
abbrev S1x32x224x224 : Shape := ⟨4, ![1, 32, 224, 224]⟩
abbrev S1x32x28x28 : Shape := ⟨4, ![1, 32, 28, 28]⟩
abbrev S32x224x224 : Shape := ⟨3, ![32, 224, 224]⟩
abbrev S32x224x112x2 : Shape := ⟨4, ![32, 224, 112, 2]⟩
abbrev S32x224x112 : Shape := ⟨3, ![32, 224, 112]⟩
abbrev S32x224x56x2 : Shape := ⟨4, ![32, 224, 56, 2]⟩
abbrev S32x224x56 : Shape := ⟨3, ![32, 224, 56]⟩
abbrev S32x224x28x2 : Shape := ⟨4, ![32, 224, 28, 2]⟩
abbrev S32x224x28 : Shape := ⟨3, ![32, 224, 28]⟩
abbrev S32x112x2x28 : Shape := ⟨4, ![32, 112, 2, 28]⟩
abbrev S32x112x28 : Shape := ⟨3, ![32, 112, 28]⟩
abbrev S32x56x2x28 : Shape := ⟨4, ![32, 56, 2, 28]⟩
abbrev S32x56x28 : Shape := ⟨3, ![32, 56, 28]⟩
abbrev S32x28x2x28 : Shape := ⟨4, ![32, 28, 2, 28]⟩
abbrev S32x28x28 : Shape := ⟨3, ![32, 28, 28]⟩
abbrev S8x16x28x28 : Shape := ⟨4, ![8, 16, 28, 28]⟩
abbrev S1x16x448x448 : Shape := ⟨4, ![1, 16, 448, 448]⟩
abbrev S1x16x28x28 : Shape := ⟨4, ![1, 16, 28, 28]⟩
abbrev S16x448x448 : Shape := ⟨3, ![16, 448, 448]⟩
abbrev S16x448x224x2 : Shape := ⟨4, ![16, 448, 224, 2]⟩
abbrev S16x448x224 : Shape := ⟨3, ![16, 448, 224]⟩
abbrev S16x448x112x2 : Shape := ⟨4, ![16, 448, 112, 2]⟩
abbrev S16x448x112 : Shape := ⟨3, ![16, 448, 112]⟩
abbrev S16x448x56x2 : Shape := ⟨4, ![16, 448, 56, 2]⟩
abbrev S16x448x56 : Shape := ⟨3, ![16, 448, 56]⟩
abbrev S16x448x28x2 : Shape := ⟨4, ![16, 448, 28, 2]⟩
abbrev S16x448x28 : Shape := ⟨3, ![16, 448, 28]⟩
abbrev S16x224x2x28 : Shape := ⟨4, ![16, 224, 2, 28]⟩
abbrev S16x224x28 : Shape := ⟨3, ![16, 224, 28]⟩
abbrev S16x112x2x28 : Shape := ⟨4, ![16, 112, 2, 28]⟩
abbrev S16x112x28 : Shape := ⟨3, ![16, 112, 28]⟩
abbrev S16x56x2x28 : Shape := ⟨4, ![16, 56, 2, 28]⟩
abbrev S16x56x28 : Shape := ⟨3, ![16, 56, 28]⟩
abbrev S16x28x2x28 : Shape := ⟨4, ![16, 28, 2, 28]⟩
abbrev S16x28x28 : Shape := ⟨3, ![16, 28, 28]⟩

abbrev nBuf : Space → Nat
  | .hbm => 10
  | .vmem => 28
  | .smem => 0
  | _ => 0

abbrev bufTy : (tb : Table) → Fin (tcTables nBuf tb) → BufTy
  | .hbm, ⟨0, _⟩ => ⟨S8x128x56x56, .f32⟩
  | .hbm, ⟨1, _⟩ => ⟨S8x64x112x112, .f32⟩
  | .hbm, ⟨2, _⟩ => ⟨S8x32x224x224, .f32⟩
  | .hbm, ⟨3, _⟩ => ⟨S8x16x448x448, .f32⟩
  | .hbm, ⟨4, _⟩ => ⟨S8x256x28x28, .f32⟩
  | .hbm, ⟨5, _⟩ => ⟨S8x128x28x28, .f32⟩
  | .hbm, ⟨6, _⟩ => ⟨S8x64x28x28, .f32⟩
  | .hbm, ⟨7, _⟩ => ⟨S8x32x28x28, .f32⟩
  | .hbm, ⟨8, _⟩ => ⟨S8x16x28x28, .f32⟩
  | .hbm, ⟨9, _⟩ => ⟨S8x256x28x28, .f32⟩
  | .local _ .vmem, ⟨0, _⟩ => ⟨S1x128x56x56, .f32⟩
  | .local _ .vmem, ⟨1, _⟩ => ⟨S1x128x56x56, .f32⟩
  | .local _ .vmem, ⟨2, _⟩ => ⟨S1x128x28x28, .f32⟩
  | .local _ .vmem, ⟨3, _⟩ => ⟨S1x128x28x28, .f32⟩
  | .local _ .vmem, ⟨4, _⟩ => ⟨S1x64x112x112, .f32⟩
  | .local _ .vmem, ⟨5, _⟩ => ⟨S1x64x112x112, .f32⟩
  | .local _ .vmem, ⟨6, _⟩ => ⟨S1x64x28x28, .f32⟩
  | .local _ .vmem, ⟨7, _⟩ => ⟨S1x64x28x28, .f32⟩
  | .local _ .vmem, ⟨8, _⟩ => ⟨S1x32x224x224, .f32⟩
  | .local _ .vmem, ⟨9, _⟩ => ⟨S1x32x224x224, .f32⟩
  | .local _ .vmem, ⟨10, _⟩ => ⟨S1x32x28x28, .f32⟩
  | .local _ .vmem, ⟨11, _⟩ => ⟨S1x32x28x28, .f32⟩
  | .local _ .vmem, ⟨12, _⟩ => ⟨S1x16x448x448, .f32⟩
  | .local _ .vmem, ⟨13, _⟩ => ⟨S1x16x448x448, .f32⟩
  | .local _ .vmem, ⟨14, _⟩ => ⟨S1x16x28x28, .f32⟩
  | .local _ .vmem, ⟨15, _⟩ => ⟨S1x16x28x28, .f32⟩
  | .local _ .vmem, ⟨16, _⟩ => ⟨S1x128x28x28, .f32⟩
  | .local _ .vmem, ⟨17, _⟩ => ⟨S1x128x28x28, .f32⟩
  | .local _ .vmem, ⟨18, _⟩ => ⟨S1x64x28x28, .f32⟩
  | .local _ .vmem, ⟨19, _⟩ => ⟨S1x64x28x28, .f32⟩
  | .local _ .vmem, ⟨20, _⟩ => ⟨S1x32x28x28, .f32⟩
  | .local _ .vmem, ⟨21, _⟩ => ⟨S1x32x28x28, .f32⟩
  | .local _ .vmem, ⟨22, _⟩ => ⟨S1x16x28x28, .f32⟩
  | .local _ .vmem, ⟨23, _⟩ => ⟨S1x16x28x28, .f32⟩
  | .local _ .vmem, ⟨24, _⟩ => ⟨S1x128x28x28, .f32⟩
  | .local _ .vmem, ⟨25, _⟩ => ⟨S1x128x28x28, .f32⟩
  | .local _ .vmem, ⟨26, _⟩ => ⟨S1x128x28x28, .f32⟩
  | .local _ .vmem, ⟨27, _⟩ => ⟨S1x128x28x28, .f32⟩
  | _, _ => ⟨S8x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg3_1 : Ref sig .tc := ⟨.vmem, 23, rfl⟩
abbrev cc4_stg4_0 : Ref sig .tc := ⟨.vmem, 24, rfl⟩
abbrev cc4_stg4_1 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc4_sem3_0 : DmaSem sig := 22
abbrev cc4_sem3_1 : DmaSem sig := 23
abbrev cc4_sem4_0 : DmaSem sig := 24
abbrev cc4_sem4_1 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x28x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x112x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x28x28 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x32x224x224 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x32x28x28 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x16x448x448 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x16x28x28 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![8, 2], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_2 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_4 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_5 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x128x28x28 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x64x28x28 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x32x28x28 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x16x28x28 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x128x28x28 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x128x28x28 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

class Facts₀ : Prop where
  inb_S1x128x56x56_S1x128x56x56_0_0_0_0 : ∀ a, (![0, 0, 0, 0] : Fin 4 → Nat) a + S1x128x56x56.size a ≤ S1x128x56x56.size a
  h_S1x128x56x56 : 0 < S1x128x56x56.numel
  shapeCasts_S1x128x56x56_S128x56x56 : S1x128x56x56.ShapeCasts S128x56x56
  shapeCasts_S128x56x56_S128x56x28x2 : S128x56x56.ShapeCasts S128x56x28x2
  reduces_S128x56x28x2_S128x56x28 : S128x56x28x2.Reduces [3] S128x56x28
  shapeCasts_S128x56x28_S128x28x2x28 : S128x56x28.ShapeCasts S128x28x2x28
  reduces_S128x28x2x28_S128x28x28 : S128x28x2x28.Reduces [2] S128x28x28
  inb_S1x128x28x28_S1x128x28x28_0_0_0_0 : ∀ a, (![0, 0, 0, 0] : Fin 4 → Nat) a + S1x128x28x28.size a ≤ S1x128x28x28.size a
  h_S1x128x28x28 : 0 < S1x128x28x28.numel
  shapeCasts_S1x128x28x28_S128x28x28 : S1x128x28x28.ShapeCasts S128x28x28
  shapeCasts_S128x28x28_S1x128x28x28 : S128x28x28.ShapeCasts S1x128x28x28
  inb_S1x64x112x112_S1x64x112x112_0_0_0_0 : ∀ a, (![0, 0, 0, 0] : Fin 4 → Nat) a + S1x64x112x112.size a ≤ S1x64x112x112.size a
  h_S1x64x112x112 : 0 < S1x64x112x112.numel
  shapeCasts_S1x64x112x112_S64x112x112 : S1x64x112x112.ShapeCasts S64x112x112
  shapeCasts_S64x112x112_S64x112x56x2 : S64x112x112.ShapeCasts S64x112x56x2
  reduces_S64x112x56x2_S64x112x56 : S64x112x56x2.Reduces [3] S64x112x56
  shapeCasts_S64x112x56_S64x112x28x2 : S64x112x56.ShapeCasts S64x112x28x2
  reduces_S64x112x28x2_S64x112x28 : S64x112x28x2.Reduces [3] S64x112x28
  shapeCasts_S64x112x28_S64x56x2x28 : S64x112x28.ShapeCasts S64x56x2x28
  reduces_S64x56x2x28_S64x56x28 : S64x56x2x28.Reduces [2] S64x56x28
  shapeCasts_S64x56x28_S64x28x2x28 : S64x56x28.ShapeCasts S64x28x2x28
  reduces_S64x28x2x28_S64x28x28 : S64x28x2x28.Reduces [2] S64x28x28
  inb_S1x64x28x28_S1x64x28x28_0_0_0_0 : ∀ a, (![0, 0, 0, 0] : Fin 4 → Nat) a + S1x64x28x28.size a ≤ S1x64x28x28.size a
  h_S1x64x28x28 : 0 < S1x64x28x28.numel
  shapeCasts_S1x64x28x28_S64x28x28 : S1x64x28x28.ShapeCasts S64x28x28
  shapeCasts_S64x28x28_S1x64x28x28 : S64x28x28.ShapeCasts S1x64x28x28
  inb_S1x32x224x224_S1x32x224x224_0_0_0_0 : ∀ a, (![0, 0, 0, 0] : Fin 4 → Nat) a + S1x32x224x224.size a ≤ S1x32x224x224.size a
  h_S1x32x224x224 : 0 < S1x32x224x224.numel
  shapeCasts_S1x32x224x224_S32x224x224 : S1x32x224x224.ShapeCasts S32x224x224
  shapeCasts_S32x224x224_S32x224x112x2 : S32x224x224.ShapeCasts S32x224x112x2
  reduces_S32x224x112x2_S32x224x112 : S32x224x112x2.Reduces [3] S32x224x112
  shapeCasts_S32x224x112_S32x224x56x2 : S32x224x112.ShapeCasts S32x224x56x2
  reduces_S32x224x56x2_S32x224x56 : S32x224x56x2.Reduces [3] S32x224x56
  shapeCasts_S32x224x56_S32x224x28x2 : S32x224x56.ShapeCasts S32x224x28x2
  reduces_S32x224x28x2_S32x224x28 : S32x224x28x2.Reduces [3] S32x224x28
  shapeCasts_S32x224x28_S32x112x2x28 : S32x224x28.ShapeCasts S32x112x2x28
  reduces_S32x112x2x28_S32x112x28 : S32x112x2x28.Reduces [2] S32x112x28
  shapeCasts_S32x112x28_S32x56x2x28 : S32x112x28.ShapeCasts S32x56x2x28
  reduces_S32x56x2x28_S32x56x28 : S32x56x2x28.Reduces [2] S32x56x28
  shapeCasts_S32x56x28_S32x28x2x28 : S32x56x28.ShapeCasts S32x28x2x28
  reduces_S32x28x2x28_S32x28x28 : S32x28x2x28.Reduces [2] S32x28x28
  inb_S1x32x28x28_S1x32x28x28_0_0_0_0 : ∀ a, (![0, 0, 0, 0] : Fin 4 → Nat) a + S1x32x28x28.size a ≤ S1x32x28x28.size a
  h_S1x32x28x28 : 0 < S1x32x28x28.numel
  shapeCasts_S1x32x28x28_S32x28x28 : S1x32x28x28.ShapeCasts S32x28x28
  shapeCasts_S32x28x28_S1x32x28x28 : S32x28x28.ShapeCasts S1x32x28x28
  inb_S1x16x448x448_S1x16x448x448_0_0_0_0 : ∀ a, (![0, 0, 0, 0] : Fin 4 → Nat) a + S1x16x448x448.size a ≤ S1x16x448x448.size a
  h_S1x16x448x448 : 0 < S1x16x448x448.numel
  shapeCasts_S1x16x448x448_S16x448x448 : S1x16x448x448.ShapeCasts S16x448x448
  shapeCasts_S16x448x448_S16x448x224x2 : S16x448x448.ShapeCasts S16x448x224x2
  reduces_S16x448x224x2_S16x448x224 : S16x448x224x2.Reduces [3] S16x448x224
  shapeCasts_S16x448x224_S16x448x112x2 : S16x448x224.ShapeCasts S16x448x112x2
  reduces_S16x448x112x2_S16x448x112 : S16x448x112x2.Reduces [3] S16x448x112
  shapeCasts_S16x448x112_S16x448x56x2 : S16x448x112.ShapeCasts S16x448x56x2
  reduces_S16x448x56x2_S16x448x56 : S16x448x56x2.Reduces [3] S16x448x56
  shapeCasts_S16x448x56_S16x448x28x2 : S16x448x56.ShapeCasts S16x448x28x2
  reduces_S16x448x28x2_S16x448x28 : S16x448x28x2.Reduces [3] S16x448x28
  shapeCasts_S16x448x28_S16x224x2x28 : S16x448x28.ShapeCasts S16x224x2x28
  reduces_S16x224x2x28_S16x224x28 : S16x224x2x28.Reduces [2] S16x224x28
  shapeCasts_S16x224x28_S16x112x2x28 : S16x224x28.ShapeCasts S16x112x2x28
  reduces_S16x112x2x28_S16x112x28 : S16x112x2x28.Reduces [2] S16x112x28
  shapeCasts_S16x112x28_S16x56x2x28 : S16x112x28.ShapeCasts S16x56x2x28
  reduces_S16x56x2x28_S16x56x28 : S16x56x2x28.Reduces [2] S16x56x28
  shapeCasts_S16x56x28_S16x28x2x28 : S16x56x28.ShapeCasts S16x28x2x28
  reduces_S16x28x2x28_S16x28x28 : S16x28x2x28.Reduces [2] S16x28x28
  inb_S1x16x28x28_S1x16x28x28_0_0_0_0 : ∀ a, (![0, 0, 0, 0] : Fin 4 → Nat) a + S1x16x28x28.size a ≤ S1x16x28x28.size a
  h_S1x16x28x28 : 0 < S1x16x28x28.numel
  shapeCasts_S1x16x28x28_S16x28x28 : S1x16x28x28.ShapeCasts S16x28x28
  shapeCasts_S16x28x28_S1x16x28x28 : S16x28x28.ShapeCasts S1x16x28x28
  concatenates_S64x28x28_S64x28x28_S128x28x28_d0 : Shape.Concatenates [S64x28x28, S64x28x28] S128x28x28 0
  concatenates_S32x28x28_S32x28x28_S32x28x28_S32x28x28_S128x28x28_d0 : Shape.Concatenates [S32x28x28, S32x28x28, S32x28x28, S32x28x28] S128x28x28 0
  concatenates_S16x28x28_S16x28x28_S16x28x28_S16x28x28_S16x28x28_S16x28x28_S16x28x28_S16x28x28_S128x28x28_d0 : Shape.Concatenates [S16x28x28, S16x28x28, S16x28x28, S16x28x28, S16x28x28, S16x28x28, S16x28x28, S16x28x28] S128x28x28 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x56x56.size a ≤ S8x128x56x56.size a
  hwx0_0 : ∀ i : grid0.Coords, EltTy.bits .f32 = 32 ∨ (Rect.block (s := S8x128x56x56) S1x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x28x28.size a ≤ S8x128x28x28.size a
  hwx0_1 : ∀ i : grid0.Coords, EltTy.bits .f32 = 32 ∨ (Rect.block (s := S8x128x28x28) S1x128x28x28.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x112x112.size a ≤ S8x64x112x112.size a
  hwx1_0 : ∀ i : grid1.Coords, EltTy.bits .f32 = 32 ∨ (Rect.block (s := S8x64x112x112) S1x64x112x112.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x28x28.size a ≤ S8x64x28x28.size a
  hwx1_1 : ∀ i : grid1.Coords, EltTy.bits .f32 = 32 ∨ (Rect.block (s := S8x64x28x28) S1x64x28x28.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x224x224.size a ≤ S8x32x224x224.size a
  hwx2_0 : ∀ i : grid2.Coords, EltTy.bits .f32 = 32 ∨ (Rect.block (s := S8x32x224x224) S1x32x224x224.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x32x28x28.size a ≤ S8x32x28x28.size a
  hwx2_1 : ∀ i : grid2.Coords, EltTy.bits .f32 = 32 ∨ (Rect.block (s := S8x32x28x28) S1x32x28x28.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x16x448x448.size a ≤ S8x16x448x448.size a
  hwx3_0 : ∀ i : grid3.Coords, EltTy.bits .f32 = 32 ∨ (Rect.block (s := S8x16x448x448) S1x16x448x448.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x16x28x28.size a ≤ S8x16x28x28.size a
  hwx3_1 : ∀ i : grid3.Coords, EltTy.bits .f32 = 32 ∨ (Rect.block (s := S8x16x28x28) S1x16x28x28.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x128x28x28.size a ≤ S8x128x28x28.size a
  hwx4_0 : ∀ i : grid4.Coords, EltTy.bits .f32 = 32 ∨ (Rect.block (s := S8x128x28x28) S1x128x28x28.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x64x28x28.size a ≤ S8x64x28x28.size a
  hwx4_1 : ∀ i : grid4.Coords, EltTy.bits .f32 = 32 ∨ (Rect.block (s := S8x64x28x28) S1x64x28x28.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x32x28x28.size a ≤ S8x32x28x28.size a
  hwx4_2 : ∀ i : grid4.Coords, EltTy.bits .f32 = 32 ∨ (Rect.block (s := S8x32x28x28) S1x32x28x28.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x16x28x28.size a ≤ S8x16x28x28.size a
  hwx4_3 : ∀ i : grid4.Coords, EltTy.bits .f32 = 32 ∨ (Rect.block (s := S8x16x28x28) S1x16x28x28.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x128x28x28.size a ≤ S8x256x28x28.size a
  hwx4_4 : ∀ i : grid4.Coords, EltTy.bits .f32 = 32 ∨ (Rect.block (s := S8x256x28x28) S1x128x28x28.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x128x28x28.size a ≤ S8x256x28x28.size a
  hwx4_5 : ∀ i : grid4.Coords, EltTy.bits .f32 = 32 ∨ (Rect.block (s := S8x256x28x28) S1x128x28x28.size (cc4_transform_5 i) (hinb4_5 i)).WholeWords (EltTy.packing .f32)

variable [Facts₀]

abbrev win0_0 : Pipeline.Window sig grid0 :=
  Pipeline.Window.ofSpec (Memref.whole main_arg0) S1x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x28x28.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x64x112x112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x64x28x28.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S1x32x224x224.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x32x28x28.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg3) S1x16x448x448.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x16x28x28.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v0) S1x128x28x28.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S1x64x28x28.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1x32x28x28.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v3) S1x16x28x28.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg4) S1x128x28x28.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v4) S1x128x28x28.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S8x128x56x56 : Shape := ⟨4, ![8, 128, 56, 56]⟩
abbrev S8x64x112x112 : Shape := ⟨4, ![8, 64, 112, 112]⟩
abbrev S8x32x224x224 : Shape := ⟨4, ![8, 32, 224, 224]⟩
abbrev S8x16x448x448 : Shape := ⟨4, ![8, 16, 448, 448]⟩
abbrev S8x256x28x28 : Shape := ⟨4, ![8, 256, 28, 28]⟩
abbrev S_ : Shape := ⟨0, ![]⟩
abbrev S8x128x28x28 : Shape := ⟨4, ![8, 128, 28, 28]⟩
abbrev S1x8x1x128x1x28x1x28 : Shape := ⟨8, ![1, 8, 1, 128, 1, 28, 1, 28]⟩
abbrev S1x8x2x128x1x28x1x28 : Shape := ⟨8, ![1, 8, 2, 128, 1, 28, 1, 28]⟩
abbrev S8x64x28x28 : Shape := ⟨4, ![8, 64, 28, 28]⟩
abbrev S1x8x1x64x1x28x1x28 : Shape := ⟨8, ![1, 8, 1, 64, 1, 28, 1, 28]⟩
abbrev S1x8x4x64x1x28x1x28 : Shape := ⟨8, ![1, 8, 4, 64, 1, 28, 1, 28]⟩
abbrev S8x32x28x28 : Shape := ⟨4, ![8, 32, 28, 28]⟩
abbrev S1x8x1x32x1x28x1x28 : Shape := ⟨8, ![1, 8, 1, 32, 1, 28, 1, 28]⟩
abbrev S1x8x8x32x1x28x1x28 : Shape := ⟨8, ![1, 8, 8, 32, 1, 28, 1, 28]⟩
abbrev S8x16x28x28 : Shape := ⟨4, ![8, 16, 28, 28]⟩
abbrev S1x8x1x16x1x28x1x28 : Shape := ⟨8, ![1, 8, 1, 16, 1, 28, 1, 28]⟩
abbrev S1x8x16x16x1x28x1x28 : Shape := ⟨8, ![1, 8, 16, 16, 1, 28, 1, 28]⟩

abbrev nBuf : Space → Nat
  | .hbm => 36
  | .vmem => 0
  | .smem => 0
  | _ => 0

abbrev bufTy : (tb : Table) → Fin (tcTables nBuf tb) → BufTy
  | .hbm, ⟨0, _⟩ => ⟨S8x128x56x56, .f32⟩
  | .hbm, ⟨1, _⟩ => ⟨S8x64x112x112, .f32⟩
  | .hbm, ⟨2, _⟩ => ⟨S8x32x224x224, .f32⟩
  | .hbm, ⟨3, _⟩ => ⟨S8x16x448x448, .f32⟩
  | .hbm, ⟨4, _⟩ => ⟨S8x256x28x28, .f32⟩
  | .hbm, ⟨5, _⟩ => ⟨S_, .f32⟩
  | .hbm, ⟨6, _⟩ => ⟨S_, .f32⟩
  | .hbm, ⟨7, _⟩ => ⟨S8x128x28x28, .f32⟩
  | .hbm, ⟨8, _⟩ => ⟨S1x8x1x128x1x28x1x28, .f32⟩
  | .hbm, ⟨9, _⟩ => ⟨S1x8x2x128x1x28x1x28, .f32⟩
  | .hbm, ⟨10, _⟩ => ⟨S8x256x28x28, .f32⟩
  | .hbm, ⟨11, _⟩ => ⟨S_, .f32⟩
  | .hbm, ⟨12, _⟩ => ⟨S_, .f32⟩
  | .hbm, ⟨13, _⟩ => ⟨S8x64x28x28, .f32⟩
  | .hbm, ⟨14, _⟩ => ⟨S1x8x1x64x1x28x1x28, .f32⟩
  | .hbm, ⟨15, _⟩ => ⟨S1x8x4x64x1x28x1x28, .f32⟩
  | .hbm, ⟨16, _⟩ => ⟨S8x256x28x28, .f32⟩
  | .hbm, ⟨17, _⟩ => ⟨S_, .f32⟩
  | .hbm, ⟨18, _⟩ => ⟨S_, .f32⟩
  | .hbm, ⟨19, _⟩ => ⟨S8x32x28x28, .f32⟩
  | .hbm, ⟨20, _⟩ => ⟨S1x8x1x32x1x28x1x28, .f32⟩
  | .hbm, ⟨21, _⟩ => ⟨S1x8x8x32x1x28x1x28, .f32⟩
  | .hbm, ⟨22, _⟩ => ⟨S8x256x28x28, .f32⟩
  | .hbm, ⟨23, _⟩ => ⟨S_, .f32⟩
  | .hbm, ⟨24, _⟩ => ⟨S_, .f32⟩
  | .hbm, ⟨25, _⟩ => ⟨S8x16x28x28, .f32⟩
  | .hbm, ⟨26, _⟩ => ⟨S1x8x1x16x1x28x1x28, .f32⟩
  | .hbm, ⟨27, _⟩ => ⟨S1x8x16x16x1x28x1x28, .f32⟩
  | .hbm, ⟨28, _⟩ => ⟨S8x256x28x28, .f32⟩
  | .hbm, ⟨29, _⟩ => ⟨S8x256x28x28, .f32⟩
  | .hbm, ⟨30, _⟩ => ⟨S8x256x28x28, .f32⟩
  | .hbm, ⟨31, _⟩ => ⟨S8x256x28x28, .f32⟩
  | .hbm, ⟨32, _⟩ => ⟨S8x256x28x28, .f32⟩
  | .hbm, ⟨33, _⟩ => ⟨S_, .f32⟩
  | .hbm, ⟨34, _⟩ => ⟨S8x256x28x28, .f32⟩
  | .hbm, ⟨35, _⟩ => ⟨S8x256x28x28, .f32⟩
  | _, _ => ⟨S8x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x128x56x56_S8x128x28x28_w1s1p0_0_w1s1p0_0_w2s2p0_0_w2s2p0_0 : S8x128x56x56.ReduceWindows (![1, 1, 2, 2] : Fin 4 → Nat) ![1, 1, 2, 2] ![0, 0, 0, 0] ![0, 0, 0, 0] S8x128x28x28
  h_S_ : 0 < S_.numel
  shapeCasts_S8x128x28x28_S1x8x1x128x1x28x1x28 : S8x128x28x28.ShapeCasts S1x8x1x128x1x28x1x28
  bcast_S1x8x1x128x1x28x1x28_S1x8x2x128x1x28x1x28_0_1_2_3_4_5_6_7 : S1x8x1x128x1x28x1x28.BroadcastsInDim S1x8x2x128x1x28x1x28 (![0, 1, 2, 3, 4, 5, 6, 7] : Fin 8 → Fin S1x8x2x128x1x28x1x28.rank)
  shapeCasts_S1x8x2x128x1x28x1x28_S8x256x28x28 : S1x8x2x128x1x28x1x28.ShapeCasts S8x256x28x28
  reduceWindows_S8x64x112x112_S8x64x28x28_w1s1p0_0_w1s1p0_0_w4s4p0_0_w4s4p0_0 : S8x64x112x112.ReduceWindows (![1, 1, 4, 4] : Fin 4 → Nat) ![1, 1, 4, 4] ![0, 0, 0, 0] ![0, 0, 0, 0] S8x64x28x28
  shapeCasts_S8x64x28x28_S1x8x1x64x1x28x1x28 : S8x64x28x28.ShapeCasts S1x8x1x64x1x28x1x28
  bcast_S1x8x1x64x1x28x1x28_S1x8x4x64x1x28x1x28_0_1_2_3_4_5_6_7 : S1x8x1x64x1x28x1x28.BroadcastsInDim S1x8x4x64x1x28x1x28 (![0, 1, 2, 3, 4, 5, 6, 7] : Fin 8 → Fin S1x8x4x64x1x28x1x28.rank)
  shapeCasts_S1x8x4x64x1x28x1x28_S8x256x28x28 : S1x8x4x64x1x28x1x28.ShapeCasts S8x256x28x28
  reduceWindows_S8x32x224x224_S8x32x28x28_w1s1p0_0_w1s1p0_0_w8s8p0_0_w8s8p0_0 : S8x32x224x224.ReduceWindows (![1, 1, 8, 8] : Fin 4 → Nat) ![1, 1, 8, 8] ![0, 0, 0, 0] ![0, 0, 0, 0] S8x32x28x28
  shapeCasts_S8x32x28x28_S1x8x1x32x1x28x1x28 : S8x32x28x28.ShapeCasts S1x8x1x32x1x28x1x28
  bcast_S1x8x1x32x1x28x1x28_S1x8x8x32x1x28x1x28_0_1_2_3_4_5_6_7 : S1x8x1x32x1x28x1x28.BroadcastsInDim S1x8x8x32x1x28x1x28 (![0, 1, 2, 3, 4, 5, 6, 7] : Fin 8 → Fin S1x8x8x32x1x28x1x28.rank)
  shapeCasts_S1x8x8x32x1x28x1x28_S8x256x28x28 : S1x8x8x32x1x28x1x28.ShapeCasts S8x256x28x28
  reduceWindows_S8x16x448x448_S8x16x28x28_w1s1p0_0_w1s1p0_0_w16s16p0_0_w16s16p0_0 : S8x16x448x448.ReduceWindows (![1, 1, 16, 16] : Fin 4 → Nat) ![1, 1, 16, 16] ![0, 0, 0, 0] ![0, 0, 0, 0] S8x16x28x28
  shapeCasts_S8x16x28x28_S1x8x1x16x1x28x1x28 : S8x16x28x28.ShapeCasts S1x8x1x16x1x28x1x28
  bcast_S1x8x1x16x1x28x1x28_S1x8x16x16x1x28x1x28_0_1_2_3_4_5_6_7 : S1x8x1x16x1x28x1x28.BroadcastsInDim S1x8x16x16x1x28x1x28 (![0, 1, 2, 3, 4, 5, 6, 7] : Fin 8 → Fin S1x8x16x16x1x28x1x28.rank)
  shapeCasts_S1x8x16x16x1x28x1x28_S8x256x28x28 : S1x8x16x16x1x28x1x28.ShapeCasts S8x256x28x28
  bcast_S_S8x256x28x28 : S_.BroadcastsInDim S8x256x28x28 (![] : Fin 0 → Fin S8x256x28x28.rank)

variable [Facts₀]

class Facts : Prop extends Facts₀ where

variable [Facts]
-- ==== Proof.ValueRun.lean ====
/-
  The kernel program's run, with the result buffer read.

  The program is five regions in a row.  At each boundary between regions every unscoped buffer of the core has known
  contents, the fold `W0 … W5`: a region's arrays hold what its write-backs leave, every other buffer what it held
  when the region was entered.  The run of the five regions therefore ends with every unscoped buffer at `W5`.  Read
  at the result buffer this gives its final contents as `W5` of its own reference; read at an argument buffer, which
  no region writes, the fold walks back to the launch memory.
-/
import proofs.«124250_j26637387169835_1_alg».proof.Proof.Gen.KernelIdeal.Frame

set_option maxRecDepth 16384

noncomputable section

namespace Cert.PoolSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without fault; the result buffer ends at the last
    boundary's contents `W5`, and the five argument buffers end as launched. -/
theorem value_run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.PoolSum

end
-- ==== Proof.Spec.lean ====
/-
  What both programs compute, written once over the extended reals.

  A window maximum: for an array `x` of shape [B, C, H, W] and a window size `k`, the pooled value at
  (b, c, i, j) is the least upper bound of the entries x[b, c, h, w] whose row h and column w lie in the i-th and j-th
  block of k consecutive places (h / k = i, w / k = j).  It is stated as a supremum over a set of index pairs, so that
  it is characterised by its upper bounds alone (`pool_le_iff`): a value built by any bracketing of binary maxima,
  started or not from the bottom element, is this supremum as soon as it has the same upper bounds.

  The result: four pooled arrays of 128, 64, 32 and 16 channels are repeated along the channel axis up to 256
  channels (channel `ch` reads channel `ch % 128`, `ch % 64`, `ch % 32`, `ch % 16`), added in this order, then the
  fifth argument is added, and the sum is clamped below at zero.
-/
import Idealize.ShloMosaic.PureOps.Ideal
import Idealize.ShloMosaic.Lib.ValueIdx

noncomputable section

namespace Cert.PoolSum

open Idealize.ShloMosaic Idealize.ShloMosaic.ValueIdx

/-- The maximum of `x[b, c, ·, ·]` over the rows `h` with `h / k = i` and the columns `w` with `w / k = j`. -/
def pool {B C H W : ℕ} (k : ℕ) (x : (⟨4, ![B, C, H, W]⟩ : Shape).Idx → EReal) (b : Fin B) (c : Fin C) (i j : ℕ) : EReal :=
  (Finset.univ.filter fun p : Fin H × Fin W => p.1.val / k = i ∧ p.2.val / k = j).sup fun p => x (ix4 b c p.1 p.2)

/-- The window maximum is known by its upper bounds: it is below `z` exactly when every entry of the window is. -/
theorem pool_le_iff {B C H W : ℕ} (k : ℕ) (x : (⟨4, ![B, C, H, W]⟩ : Shape).Idx → EReal) (b : Fin B) (c : Fin C)
    (i j : ℕ) (z : EReal) :
    pool k x b c i j ≤ z ↔ ∀ (h : Fin H) (w : Fin W), h.val / k = i → w.val / k = j → x (ix4 b c h w) ≤ z := by
  unfold pool
  rw [Finset.sup_le_iff]
  constructor
  · intro hp h w hh hw
    exact hp (h, w) (Finset.mem_filter.mpr ⟨Finset.mem_univ _, hh, hw⟩)
  · intro hp p hmem
    obtain ⟨_, hh, hw⟩ := Finset.mem_filter.mp hmem
    exact hp p.1 p.2 hh hw

/-- A value with the window's upper bounds is the window maximum. -/
theorem eq_pool_of_le_iff {B C H W : ℕ} (k : ℕ) (x : (⟨4, ![B, C, H, W]⟩ : Shape).Idx → EReal) (b : Fin B) (c : Fin C)
    (i j : ℕ) (v : EReal)
    (hv : ∀ z : EReal, v ≤ z ↔ ∀ (h : Fin H) (w : Fin W), h.val / k = i → w.val / k = j → x (ix4 b c h w) ≤ z) :
    v = pool k x b c i j :=
  eq_of_forall_ge_iff fun z => (hv z).trans (pool_le_iff k x b c i j z).symm

/-- The pooled array of extents [B, C, H', W']: entry (b, c, i, j) is the window maximum of block (i, j). -/
def pooled {B C H W : ℕ} (k H' W' : ℕ) (x : (⟨4, ![B, C, H, W]⟩ : Shape).Idx → EReal) :
    (⟨4, ![B, C, H', W']⟩ : Shape).Idx → EReal :=
  fun q => pool k x (q 0) (q 1) (q 2).val (q 3).val

/-- Channel `ch` of the output reads channel `ch % n` of an array of `n` channels. -/
def chan {N : ℕ} (n : ℕ) (hn : 0 < n) (ch : Fin N) : Fin n := ⟨ch.val % n, Nat.mod_lt _ hn⟩

/-- The four pooled arrays repeated along the channel axis, added to the fifth array, clamped below at zero. Stated
    for `B` batch entries and `N` output channels, so that it serves a whole array and one of its blocks alike. -/
def combine {B N : ℕ} (p1 : (⟨4, ![B, 128, 28, 28]⟩ : Shape).Idx → EReal) (p2 : (⟨4, ![B, 64, 28, 28]⟩ : Shape).Idx → EReal)
    (p3 : (⟨4, ![B, 32, 28, 28]⟩ : Shape).Idx → EReal) (p4 : (⟨4, ![B, 16, 28, 28]⟩ : Shape).Idx → EReal)
    (ff : (⟨4, ![B, N, 28, 28]⟩ : Shape).Idx → EReal) : (⟨4, ![B, N, 28, 28]⟩ : Shape).Idx → EReal :=
  fun q => max (p1 (ix4 (q 0) (chan 128 (by norm_num) (q 1)) (q 2) (q 3))
    + p2 (ix4 (q 0) (chan 64 (by norm_num) (q 1)) (q 2) (q 3))
    + p3 (ix4 (q 0) (chan 32 (by norm_num) (q 1)) (q 2) (q 3))
    + p4 (ix4 (q 0) (chan 16 (by norm_num) (q 1)) (q 2) (q 3))
    + ff q) 0

/-- The whole computation on the five argument arrays. -/
def spec (x1 : (⟨4, ![8, 128, 56, 56]⟩ : Shape).Idx → EReal) (x2 : (⟨4, ![8, 64, 112, 112]⟩ : Shape).Idx → EReal)
    (x3 : (⟨4, ![8, 32, 224, 224]⟩ : Shape).Idx → EReal) (x4 : (⟨4, ![8, 16, 448, 448]⟩ : Shape).Idx → EReal)
    (ff : (⟨4, ![8, 256, 28, 28]⟩ : Shape).Idx → EReal) : (⟨4, ![8, 256, 28, 28]⟩ : Shape).Idx → EReal :=
  combine (pooled 2 28 28 x1) (pooled 4 28 28 x2) (pooled 8 28 28 x3) (pooled 16 28 28 x4) ff

end Cert.PoolSum

end
-- ==== Proof.LibHalving.lean ====
/-
  Pairwise maxima along one axis of a rank-3 array, and what a chain of them computes.

  Halving an axis of even extent 2·n replaces the entries at places 2·w and 2·w + 1 by their maximum. A value obtained
  from an array `x` by halving its last axis a times and its middle axis b times is, at (c, i, j), the least upper
  bound of the entries x (c, h, w) with h / 2^b = i and w / 2^a = j. The statement carried along the chain is the
  characterisation by upper bounds (`Bounds kH kW x y`): y (c, i, j) ≤ z exactly when every x (c, h, w) with h / kH = i and
  w / kW = j is ≤ z. It holds of `x` itself with kH = kW = 1, and a halving doubles the corresponding factor, because
  w / (k·2) = (w / k) / 2 and a number whose half is j is 2·j or 2·j + 1.

  The last two lemmas read a vector maximum-reduction over a trailing pair (the array viewed with its last axis split
  as n × 2, or its middle axis split as n × 2, and the pair axis reduced from the bottom element) as such a halving.
-/
import Idealize.ShloMosaic.PureOps.Ideal.Laws
import Idealize.ShloMosaic.Lib.ValueIdx
import Idealize.ShloMosaic.Lib.Pipeline.Value

noncomputable section

namespace Cert.PoolSum

open Idealize.ShloMosaic Idealize.ShloMosaic.ValueIdx

variable {C H W : ℕ}

/-- The maximum of the entries at places 2·w and 2·w + 1 of the last axis. -/
def pairLast {W2 : ℕ} (hW : W = 2 * W2) (x : (⟨3, ![C, H, W]⟩ : Shape).Idx → EReal) (c : Fin C) (h : Fin H) (w : Fin W2) : EReal :=
  max (x (ix3 c h ⟨2 * w.val, by have := w.isLt; omega⟩)) (x (ix3 c h ⟨2 * w.val + 1, by have := w.isLt; omega⟩))

/-- The last axis halved. -/
def halveLast {W2 : ℕ} (hW : W = 2 * W2) (x : (⟨3, ![C, H, W]⟩ : Shape).Idx → EReal) : (⟨3, ![C, H, W2]⟩ : Shape).Idx → EReal :=
  fun j => pairLast hW x (j 0) (j 1) (j 2)

/-- The maximum of the entries at places 2·h and 2·h + 1 of the middle axis. -/
def pairMid {H2 : ℕ} (hH : H = 2 * H2) (x : (⟨3, ![C, H, W]⟩ : Shape).Idx → EReal) (c : Fin C) (h : Fin H2) (w : Fin W) : EReal :=
  max (x (ix3 c ⟨2 * h.val, by have := h.isLt; omega⟩ w)) (x (ix3 c ⟨2 * h.val + 1, by have := h.isLt; omega⟩ w))

/-- The middle axis halved. -/
def halveMid {H2 : ℕ} (hH : H = 2 * H2) (x : (⟨3, ![C, H, W]⟩ : Shape).Idx → EReal) : (⟨3, ![C, H2, W]⟩ : Shape).Idx → EReal :=
  fun j => pairMid hH x (j 0) (j 1) (j 2)

/-- `y` at (c, i, j) has exactly the upper bounds of the entries of `x` in rows `h / kH = i` and columns `w / kW = j`. -/
def Bounds (kH kW : ℕ) {H' W' : ℕ} (x : (⟨3, ![C, H, W]⟩ : Shape).Idx → EReal) (y : (⟨3, ![C, H', W']⟩ : Shape).Idx → EReal) : Prop :=
  ∀ (z : EReal) (c : Fin C) (i : Fin H') (j : Fin W'),
    y (ix3 c i j) ≤ z ↔ ∀ (h : Fin H) (w : Fin W), h.val / kH = i.val → w.val / kW = j.val → x (ix3 c h w) ≤ z

theorem Bounds.refl (x : (⟨3, ![C, H, W]⟩ : Shape).Idx → EReal) : Bounds 1 1 x x := by
  intro z c i j
  constructor
  · intro hy h w hh hw
    have e1 : h = i := Fin.ext (by rw [Nat.div_one] at hh; exact hh)
    have e2 : w = j := Fin.ext (by rw [Nat.div_one] at hw; exact hw)
    rw [e1, e2]; exact hy
  · intro hx; exact hx i j (Nat.div_one _) (Nat.div_one _)

theorem Bounds.halveLast {kH kW H' W' W2 : ℕ} {x : (⟨3, ![C, H, W]⟩ : Shape).Idx → EReal}
    {y : (⟨3, ![C, H', W']⟩ : Shape).Idx → EReal} (hb : Bounds kH kW x y) (hW : W' = 2 * W2) :
    Bounds kH (kW * 2) x (Cert.PoolSum.halveLast hW y) := by
  intro z c i j
  show pairLast hW y c i j ≤ z ↔ _
  unfold pairLast
  rw [max_le_iff, hb, hb]
  constructor
  · rintro ⟨h0, h1⟩ h w hh hw
    have e : w.val / kW / 2 = j.val := by rw [Nat.div_div_eq_div_mul]; exact hw
    rcases (by omega : w.val / kW = 2 * j.val ∨ w.val / kW = 2 * j.val + 1) with e' | e'
    · exact h0 h w hh e'
    · exact h1 h w hh e'
  · intro hx
    refine ⟨fun h w hh hw => hx h w hh ?_, fun h w hh hw => hx h w hh ?_⟩
    · rw [← Nat.div_div_eq_div_mul, hw]; show 2 * j.val / 2 = j.val; omega
    · rw [← Nat.div_div_eq_div_mul, hw]; show (2 * j.val + 1) / 2 = j.val; omega

theorem Bounds.halveMid {kH kW H' W' H2 : ℕ} {x : (⟨3, ![C, H, W]⟩ : Shape).Idx → EReal}
    {y : (⟨3, ![C, H', W']⟩ : Shape).Idx → EReal} (hb : Bounds kH kW x y) (hH : H' = 2 * H2) :
    Bounds (kH * 2) kW x (Cert.PoolSum.halveMid hH y) := by
  intro z c i j
  show pairMid hH y c i j ≤ z ↔ _
  unfold pairMid
  rw [max_le_iff, hb, hb]
  constructor
  · rintro ⟨h0, h1⟩ h w hh hw
    have e : h.val / kH / 2 = i.val := by rw [Nat.div_div_eq_div_mul]; exact hh
    rcases (by omega : h.val / kH = 2 * i.val ∨ h.val / kH = 2 * i.val + 1) with e' | e'
    · exact h0 h w e' hw
    · exact h1 h w e' hw
  · intro hx
    refine ⟨fun h w hh hw => hx h w ?_ hw, fun h w hh hw => hx h w ?_ hw⟩
    · rw [← Nat.div_div_eq_div_mul, hh]; show 2 * i.val / 2 = i.val; omega
    · rw [← Nat.div_div_eq_div_mul, hh]; show (2 * i.val + 1) / 2 = i.val; omega

/-- The bottom element of the extended reals is the word of negative infinity. -/
theorem ofBits_neg_inf : Ideal.ofBits .f32 0xFF800000#32 = (⊥ : EReal) := by simp [Ideal.ofBits, Ideal.ieee]

/-- A maximum-reduction, from the bottom element, of the trailing pair axis of the array viewed [C, H, W2, 2] is the last
    axis halved: the view keeps row-major positions, so pair (w, k) is place 2·w + k. -/
theorem red_last_eq {W2 : ℕ} (hW : W = 2 * W2) (x : FVec Ideal ⟨3, ![C, H, W]⟩ .f32)
    (hc : (⟨3, ![C, H, W]⟩ : Shape).ShapeCasts ⟨4, ![C, H, W2, 2]⟩)
    (hr : (⟨4, ![C, H, W2, 2]⟩ : Shape).Reduces [3] ⟨3, ![C, H, W2]⟩) (hφ : FKind.Formats .f32)
    (hacc : (0xFF800000#32 : BitVec 32) = 0xFF800000#32) :
    multiReduction .maximumf [3] ⟨3, ![C, H, W2]⟩ (shapeCast ⟨4, ![C, H, W2, 2]⟩ x hc) 0xFF800000#32 hr hφ hacc
      = halveLast hW x := by
  funext j
  obtain ⟨c, h, w, rfl⟩ : ∃ c h w, j = ix3 c h w := ⟨j 0, j 1, j 2, eq_ix3 j⟩
  have hw := w.isLt
  have rd : ∀ (k : Fin ((⟨4, ![C, H, W2, 2]⟩ : Shape).size 3)) (n : ℕ) (hn : n < W), n = 2 * w.val + k.val →
      shapeCast ⟨4, ![C, H, W2, 2]⟩ x hc (hr.lift (ix3 c h w) k) = x (ix3 c h ⟨n, hn⟩) := by
    intro k n hn e
    refine shapeCast_apply x hc _ _ ?_
    rw [Shape.rowMajor_val_three, Shape.rowMajor_val_four]
    show (c.val * H + h.val) * W + n = ((c.val * H + h.val) * W2 + w.val) * 2 + k.val
    subst hW; subst e; ring
  refine (Ideal.multiReduction_maximumf_single _ _ hr hφ hacc _).trans ?_
  refine eq_of_forall_ge_iff fun z => ?_
  rw [Finset.fold_max_le]
  show _ ↔ pairLast hW x c h w ≤ z
  unfold pairLast
  rw [max_le_iff]
  constructor
  · rintro ⟨-, hall⟩
    have h0 := hall ⟨0, (by norm_num : (0 : ℕ) < 2)⟩ (Finset.mem_univ _)
    have h1 := hall ⟨1, (by norm_num : (1 : ℕ) < 2)⟩ (Finset.mem_univ _)
    rw [Function.comp_apply, rd _ (2 * w.val) (by omega) rfl] at h0
    rw [Function.comp_apply, rd _ (2 * w.val + 1) (by omega) rfl] at h1
    exact ⟨h0, h1⟩
  · rintro ⟨h0, h1⟩
    refine ⟨by rw [show FloatOps.ofBits (F := Ideal) .f32 0xFF800000#32 = (⊥ : EReal) from ofBits_neg_inf]; exact bot_le, fun k _ => ?_⟩
    have hk : k.val < 2 := k.isLt
    rw [Function.comp_apply]
    rcases (by omega : k.val = 0 ∨ k.val = 1) with e | e
    · rw [rd k (2 * w.val) (by omega) (by omega)]; exact h0
    · rw [rd k (2 * w.val + 1) (by omega) (by omega)]; exact h1

/-- A maximum-reduction, from the bottom element, of the pair axis of the array viewed [C, H2, 2, W] is the middle axis
    halved: pair (h, k) is row 2·h + k. -/
theorem red_mid_eq {H2 : ℕ} (hH : H = 2 * H2) (x : FVec Ideal ⟨3, ![C, H, W]⟩ .f32)
    (hc : (⟨3, ![C, H, W]⟩ : Shape).ShapeCasts ⟨4, ![C, H2, 2, W]⟩)
    (hr : (⟨4, ![C, H2, 2, W]⟩ : Shape).Reduces [2] ⟨3, ![C, H2, W]⟩) (hφ : FKind.Formats .f32)
    (hacc : (0xFF800000#32 : BitVec 32) = 0xFF800000#32) :
    multiReduction .maximumf [2] ⟨3, ![C, H2, W]⟩ (shapeCast ⟨4, ![C, H2, 2, W]⟩ x hc) 0xFF800000#32 hr hφ hacc
      = halveMid hH x := by
  funext j
  obtain ⟨c, h, w, rfl⟩ : ∃ c h w, j = ix3 c h w := ⟨j 0, j 1, j 2, eq_ix3 j⟩
  have hh := h.isLt
  have rd : ∀ (k : Fin ((⟨4, ![C, H2, 2, W]⟩ : Shape).size 2)) (n : ℕ) (hn : n < H), n = 2 * h.val + k.val →
      shapeCast ⟨4, ![C, H2, 2, W]⟩ x hc (hr.lift (ix3 c h w) k) = x (ix3 c ⟨n, hn⟩ w) := by
    intro k n hn e
    refine shapeCast_apply x hc _ _ ?_
    rw [Shape.rowMajor_val_three, Shape.rowMajor_val_four]
    show (c.val * H + n) * W + w.val = ((c.val * H2 + h.val) * 2 + k.val) * W + w.val
    subst hH; subst e; ring
  refine (Ideal.multiReduction_maximumf_single _ _ hr hφ hacc _).trans ?_
  refine eq_of_forall_ge_iff fun z => ?_
  rw [Finset.fold_max_le]
  show _ ↔ pairMid hH x c h w ≤ z
  unfold pairMid
  rw [max_le_iff]
  constructor
  · rintro ⟨-, hall⟩
    have h0 := hall ⟨0, (by norm_num : (0 : ℕ) < 2)⟩ (Finset.mem_univ _)
    have h1 := hall ⟨1, (by norm_num : (1 : ℕ) < 2)⟩ (Finset.mem_univ _)
    rw [Function.comp_apply, rd _ (2 * h.val) (by omega) rfl] at h0
    rw [Function.comp_apply, rd _ (2 * h.val + 1) (by omega) rfl] at h1
    exact ⟨h0, h1⟩
  · rintro ⟨h0, h1⟩
    refine ⟨by rw [show FloatOps.ofBits (F := Ideal) .f32 0xFF800000#32 = (⊥ : EReal) from ofBits_neg_inf]; exact bot_le, fun k _ => ?_⟩
    have hk : k.val < 2 := k.isLt
    rw [Function.comp_apply]
    rcases (by omega : k.val = 0 ∨ k.val = 1) with e | e
    · rw [rd k (2 * h.val) (by omega) (by omega)]; exact h0
    · rw [rd k (2 * h.val + 1) (by omega) (by omega)]; exact h1

/-- Viewing a [1, C, H, W] block as [C, H, W] reads entry (0, c, h, w) at (c, h, w). -/
theorem dropUnit_ix3 {α : Type} (v : (⟨4, ![1, C, H, W]⟩ : Shape).Idx → α)
    (hc : (⟨4, ![1, C, H, W]⟩ : Shape).ShapeCasts ⟨3, ![C, H, W]⟩) (b : Fin 1) (c : Fin C) (h : Fin H) (w : Fin W) :
    shapeCast ⟨3, ![C, H, W]⟩ v hc (ix3 c h w) = v (ix4 b c h w) := by
  refine shapeCast_apply v hc _ _ ?_
  rw [Shape.rowMajor_val_three, Shape.rowMajor_val_four]
  show ((b.val * C + c.val) * H + h.val) * W + w.val = (c.val * H + h.val) * W + w.val
  have hb : b.val = 0 := by have := b.isLt; omega
  rw [hb]; ring

/-- Viewing a [C, H, W] array as a [1, C, H, W] block reads entry (c, h, w) at (0, c, h, w). -/
theorem addUnit_ix4 {α : Type} (y : (⟨3, ![C, H, W]⟩ : Shape).Idx → α)
    (hc : (⟨3, ![C, H, W]⟩ : Shape).ShapeCasts ⟨4, ![1, C, H, W]⟩) (b : Fin 1) (c : Fin C) (h : Fin H) (w : Fin W) :
    shapeCast ⟨4, ![1, C, H, W]⟩ y hc (ix4 b c h w) = y (ix3 c h w) := by
  refine shapeCast_apply y hc _ _ ?_
  rw [Shape.rowMajor_val_three, Shape.rowMajor_val_four]
  show (c.val * H + h.val) * W + w.val = ((b.val * C + c.val) * H + h.val) * W + w.val
  have hb : b.val = 0 := by have := b.isLt; omega
  rw [hb]; ring

end Cert.PoolSum

end
-- ==== Proof.Payload.lean ====
/-
  The five kernel bodies as functions of the blocks they load.

  Each pooling body halves the last axis of its [C, H, W] block log2 k times and then the middle axis log2 k times, every
  halving a maximum-reduction of a pair axis started from the bottom element. A chain of halvings keeps the
  characterisation by upper bounds, the factor doubling at each step, so after the chain the entry (c, i, j) has exactly
  the upper bounds of the k × k window (i, j): it is the window maximum. The combining body adds, channel by channel,
  the first block and two, four and eight copies of the next three blocks laid end to end along the channel axis
  (copy r of an n-channel block covers channels r·n .. r·n + n − 1, so channel cc reads channel cc % n), then the fifth
  block, and takes the maximum with zero.
-/
import proofs.«124250_j26637387169835_1_alg».proof.Proof.Spec
import proofs.«124250_j26637387169835_1_alg».proof.Proof.LibHalving
import proofs.«124250_j26637387169835_1_alg».proof.Proof.Gen.KernelIdeal.Skeleton

noncomputable section

namespace Cert.PoolSum

open Idealize.ShloMosaic Idealize.ShloMosaic.ValueIdx Cert.KernelIdeal Cert.KernelIdeal.Gen

/-- An array with the upper bounds of the k × k windows of a [1, C, H, W] block, viewed as a block again, is the
    block's pooled array. -/
theorem pooled_of_bounds {C H W k H' W' : ℕ} (v : (⟨4, ![1, C, H, W]⟩ : Shape).Idx → EReal)
    (hc : (⟨4, ![1, C, H, W]⟩ : Shape).ShapeCasts ⟨3, ![C, H, W]⟩) (y : (⟨3, ![C, H', W']⟩ : Shape).Idx → EReal)
    (hb : Bounds k k (shapeCast ⟨3, ![C, H, W]⟩ v hc) y)
    (hc' : (⟨3, ![C, H', W']⟩ : Shape).ShapeCasts ⟨4, ![1, C, H', W']⟩) :
    shapeCast ⟨4, ![1, C, H', W']⟩ y hc' = pooled k H' W' v := by
  funext q
  obtain ⟨b, c, i, j, rfl⟩ : ∃ (b : Fin 1) (c : Fin C) (i : Fin H') (j : Fin W'), q = ix4 b c i j :=
    ⟨q 0, q 1, q 2, q 3, eq_ix4 q⟩
  rw [addUnit_ix4]
  show y (ix3 c i j) = pool k v b c i.val j.val
  refine eq_pool_of_le_iff k v b c i.val j.val _ fun z => ?_
  refine (hb z c i j).trans ?_
  constructor
  · intro hx h w hh hw
    rw [← dropUnit_ix3 v hc b c h w]; exact hx h w hh hw
  · intro hx h w hh hw
    rw [dropUnit_ix3 v hc b c h w]; exact hx h w hh hw

theorem pay0 (v : Vec Ideal S1x128x56x56 .f32) : k0_pay1 (F := Ideal) v = pooled 2 28 28 v := by
  unfold k0_pay1
  dsimp only
  rw [red_last_eq (W := 56) (W2 := 28) rfl, red_mid_eq (H := 56) (H2 := 28) rfl]
  exact pooled_of_bounds v _ _ (((Bounds.refl _).halveLast _).halveMid _) _

theorem pay1 (v : Vec Ideal S1x64x112x112 .f32) : k1_pay1 (F := Ideal) v = pooled 4 28 28 v := by
  unfold k1_pay1
  dsimp only
  rw [red_last_eq (W := 112) (W2 := 56) rfl, red_last_eq (W := 56) (W2 := 28) rfl, red_mid_eq (H := 112) (H2 := 56) rfl, red_mid_eq (H := 56) (H2 := 28) rfl]
  exact pooled_of_bounds v _ _ (((((Bounds.refl _).halveLast _).halveLast _).halveMid _).halveMid _) _

theorem pay2 (v : Vec Ideal S1x32x224x224 .f32) : k2_pay1 (F := Ideal) v = pooled 8 28 28 v := by
  unfold k2_pay1
  dsimp only
  rw [red_last_eq (W := 224) (W2 := 112) rfl, red_last_eq (W := 112) (W2 := 56) rfl, red_last_eq (W := 56) (W2 := 28) rfl, red_mid_eq (H := 224) (H2 := 112) rfl, red_mid_eq (H := 112) (H2 := 56) rfl, red_mid_eq (H := 56) (H2 := 28) rfl]
  exact pooled_of_bounds v _ _
    (((((((Bounds.refl _).halveLast _).halveLast _).halveLast _).halveMid _).halveMid _).halveMid _) _

theorem pay3 (v : Vec Ideal S1x16x448x448 .f32) : k3_pay1 (F := Ideal) v = pooled 16 28 28 v := by
  unfold k3_pay1
  dsimp only
  rw [red_last_eq (W := 448) (W2 := 224) rfl, red_last_eq (W := 224) (W2 := 112) rfl, red_last_eq (W := 112) (W2 := 56) rfl, red_last_eq (W := 56) (W2 := 28) rfl,
    red_mid_eq (H := 448) (H2 := 224) rfl, red_mid_eq (H := 224) (H2 := 112) rfl, red_mid_eq (H := 112) (H2 := 56) rfl, red_mid_eq (H := 56) (H2 := 28) rfl]
  exact pooled_of_bounds v _ _
    (((((((((Bounds.refl _).halveLast _).halveLast _).halveLast _).halveLast _).halveMid _).halveMid _).halveMid _).halveMid _) _

/-- `N` copies of an n-channel array laid end to end along the channel axis, read at channel `cc`: the array at
    channel `cc % n`. -/
theorem tile_read {n : ℕ} (N : ℕ) (x : (⟨3, ![n, 28, 28]⟩ : Shape).Idx → EReal)
    (h : Shape.Concatenates ((List.replicate N (⟨⟨3, ![n, 28, 28]⟩, x⟩ : (s : Shape) × (s.Idx → EReal))).map (·.1)) ⟨3, ![128, 28, 28]⟩ 0)
    (hn : 0 < n) (cc : Fin 128) (i j : Fin 28) :
    concatenate ⟨3, ![128, 28, 28]⟩ 0 (List.replicate N (⟨⟨3, ![n, 28, 28]⟩, x⟩ : (s : Shape) × (s.Idx → EReal))) h (ix3 cc i j)
      = x (ix3 (chan n hn cc) i j) :=
  concatenate_replicate_apply 0 N x h rfl (ix3 cc i j) (ix3 (chan n hn cc) i j) rfl
    (fun b hb => match b with
      | ⟨0, _⟩ => absurd rfl hb
      | ⟨1, _⟩ => rfl
      | ⟨2, _⟩ => rfl)

theorem pay4 (v0 : Vec Ideal S1x128x28x28 .f32) (v2 : Vec Ideal S1x64x28x28 .f32) (v5 : Vec Ideal S1x32x28x28 .f32)
    (v8 : Vec Ideal S1x16x28x28 .f32) (v14 : Vec Ideal S1x128x28x28 .f32) :
    k4_pay1 (F := Ideal) v0 v2 v5 v8 v14 = combine v0 v2 v5 v8 v14 := by
  funext q
  obtain ⟨b, cc, i, j, rfl⟩ : ∃ (b : Fin 1) (cc : Fin 128) (i j : Fin 28), q = ix4 b cc i j :=
    ⟨q 0, q 1, q 2, q 3, eq_ix4 q⟩
  unfold k4_pay1
  rw [addUnit_ix4]
  have e1 : shapeCast S128x28x28 v0 shapeCasts_S1x128x28x28_S128x28x28 (ix3 cc i j) = v0 (ix4 b (chan 128 (by norm_num) cc) i j) := by
    rw [dropUnit_ix3 v0 _ b]
    exact congrArg (fun c => v0 (ix4 b c i j)) (Fin.ext (Nat.mod_eq_of_lt cc.isLt).symm)
  have e4 : concatenate S128x28x28 0 [⟨S64x28x28, shapeCast S64x28x28 v2 shapeCasts_S1x64x28x28_S64x28x28⟩, ⟨S64x28x28, shapeCast S64x28x28 v2 shapeCasts_S1x64x28x28_S64x28x28⟩] concatenates_S64x28x28_S64x28x28_S128x28x28_d0 (ix3 cc i j)
      = v2 (ix4 b (chan 64 (by norm_num) cc) i j) :=
    (tile_read 2 _ _ (by norm_num) cc i j).trans (dropUnit_ix3 v2 _ b _ i j)
  have e7 : concatenate S128x28x28 0 [⟨S32x28x28, shapeCast S32x28x28 v5 shapeCasts_S1x32x28x28_S32x28x28⟩, ⟨S32x28x28, shapeCast S32x28x28 v5 shapeCasts_S1x32x28x28_S32x28x28⟩, ⟨S32x28x28, shapeCast S32x28x28 v5 shapeCasts_S1x32x28x28_S32x28x28⟩, ⟨S32x28x28, shapeCast S32x28x28 v5 shapeCasts_S1x32x28x28_S32x28x28⟩] concatenates_S32x28x28_S32x28x28_S32x28x28_S32x28x28_S128x28x28_d0 (ix3 cc i j)
      = v5 (ix4 b (chan 32 (by norm_num) cc) i j) :=
    (tile_read 4 _ _ (by norm_num) cc i j).trans (dropUnit_ix3 v5 _ b _ i j)
  have e10 : concatenate S128x28x28 0 [⟨S16x28x28, shapeCast S16x28x28 v8 shapeCasts_S1x16x28x28_S16x28x28⟩, ⟨S16x28x28, shapeCast S16x28x28 v8 shapeCasts_S1x16x28x28_S16x28x28⟩, ⟨S16x28x28, shapeCast S16x28x28 v8 shapeCasts_S1x16x28x28_S16x28x28⟩, ⟨S16x28x28, shapeCast S16x28x28 v8 shapeCasts_S1x16x28x28_S16x28x28⟩, ⟨S16x28x28, shapeCast S16x28x28 v8 shapeCasts_S1x16x28x28_S16x28x28⟩, ⟨S16x28x28, shapeCast S16x28x28 v8 shapeCasts_S1x16x28x28_S16x28x28⟩, ⟨S16x28x28, shapeCast S16x28x28 v8 shapeCasts_S1x16x28x28_S16x28x28⟩, ⟨S16x28x28, shapeCast S16x28x28 v8 shapeCasts_S1x16x28x28_S16x28x28⟩] concatenates_S16x28x28_S16x28x28_S16x28x28_S16x28x28_S16x28x28_S16x28x28_S16x28x28_S16x28x28_S128x28x28_d0 (ix3 cc i j)
      = v8 (ix4 b (chan 16 (by norm_num) cc) i j) :=
    (tile_read 8 _ _ (by norm_num) cc i j).trans (dropUnit_ix3 v8 _ b _ i j)
  have e15 : shapeCast S128x28x28 v14 shapeCasts_S1x128x28x28_S128x28x28 (ix3 cc i j) = v14 (ix4 b cc i j) :=
    dropUnit_ix3 v14 _ b cc i j
  show max (shapeCast S128x28x28 v0 shapeCasts_S1x128x28x28_S128x28x28 (ix3 cc i j) + _ + _ + _ + _) (Ideal.ofBits .f32 0x00000000#32) = _
  rw [e1, e4, e7, e10, e15, Ideal.ofBits_zero_f32]
  rfl

end Cert.PoolSum

end
-- ==== Proof.Blocks.lean ====
/-
  The facts every region's "blocks to array" step uses; none of them mentions a program.

  A window maximum `pool k x b c i j` reads `x` only at the entries `(b, c, h, w)` of one batch entry `b` and one
  channel `c`.  So if a block `x` (one batch entry, stored at batch position `b`) and an array `x'` agree on those
  entries against the array's batch entry `b'`, the two window maxima are the same number: the supremum is taken over
  the same set of row and column pairs, of equal terms.

  The combined value at (b, ch, i, j) reads the four pooled arrays at batch entry `b` and channels `ch % 128`,
  `ch % 64`, `ch % 32`, `ch % 16`, and the fifth array at (b, ch, i, j).  The last region works on one batch entry and
  one chunk of 128 output channels at a time: channel `cc` of chunk `ck` is channel `128 * ck + cc` of the array, and
  since 128, 64, 32 and 16 all divide 128, `(128 * ck + cc) % n = cc % n` for each of them.  Hence the combined value of
  the five blocks at (0, cc, i, j) is the combined value of the five arrays at (b, 128 * ck + cc, i, j).
-/
import proofs.«124250_j26637387169835_1_alg».proof.Proof.Spec

noncomputable section

namespace Cert.PoolSum

open Idealize.ShloMosaic Idealize.ShloMosaic.ValueIdx

/-- The offsets of a rectangle that starts at the origin of a rank-4 shape are all zero. -/
theorem zero_offsets4 : (![0, 0, 0, 0] : Fin 4 → Nat) = fun _ => 0 := funext fun a => by fin_cases a <;> rfl

/-- The window maximum depends on the array only through the plane of one batch entry and one channel. -/
theorem pool_congr {B B' C H W : ℕ} (k : ℕ) (x : (⟨4, ![B, C, H, W]⟩ : Shape).Idx → EReal)
    (x' : (⟨4, ![B', C, H, W]⟩ : Shape).Idx → EReal) (b : Fin B) (b' : Fin B') (c : Fin C) (i j : ℕ)
    (h : ∀ (h : Fin H) (w : Fin W), x (ix4 b c h w) = x' (ix4 b' c h w)) : pool k x b c i j = pool k x' b' c i j :=
  Finset.sup_congr rfl fun p _ => h p.1 p.2

/-- Channel `cc` of chunk `ck` (128 channels to a chunk, two chunks) as a channel of the 256-channel array. -/
def chunkChan (ck : ℕ) (hck : ck < 2) (cc : Fin 128) : Fin 256 := ⟨128 * ck + cc.val, by have := cc.isLt; omega⟩

/-- The combined value of five blocks (one batch entry; 128 output channels, chunk `ck`) is the combined value of the
    five arrays at that batch entry and that chunk's channels, as soon as each block is the matching part of its array. -/
theorem combine_block (x0 : (⟨4, ![1, 128, 28, 28]⟩ : Shape).Idx → EReal) (x1 : (⟨4, ![1, 64, 28, 28]⟩ : Shape).Idx → EReal)
    (x2 : (⟨4, ![1, 32, 28, 28]⟩ : Shape).Idx → EReal) (x3 : (⟨4, ![1, 16, 28, 28]⟩ : Shape).Idx → EReal)
    (xf : (⟨4, ![1, 128, 28, 28]⟩ : Shape).Idx → EReal)
    (y0 : (⟨4, ![8, 128, 28, 28]⟩ : Shape).Idx → EReal) (y1 : (⟨4, ![8, 64, 28, 28]⟩ : Shape).Idx → EReal)
    (y2 : (⟨4, ![8, 32, 28, 28]⟩ : Shape).Idx → EReal) (y3 : (⟨4, ![8, 16, 28, 28]⟩ : Shape).Idx → EReal)
    (yf : (⟨4, ![8, 256, 28, 28]⟩ : Shape).Idx → EReal)
    (bt : Fin 8) (ck : ℕ) (hck : ck < 2)
    (h0 : ∀ (b : Fin 1) (ch : Fin 128) (h w : Fin 28), x0 (ix4 b ch h w) = y0 (ix4 bt ch h w))
    (h1 : ∀ (b : Fin 1) (ch : Fin 64) (h w : Fin 28), x1 (ix4 b ch h w) = y1 (ix4 bt ch h w))
    (h2 : ∀ (b : Fin 1) (ch : Fin 32) (h w : Fin 28), x2 (ix4 b ch h w) = y2 (ix4 bt ch h w))
    (h3 : ∀ (b : Fin 1) (ch : Fin 16) (h w : Fin 28), x3 (ix4 b ch h w) = y3 (ix4 bt ch h w))
    (hf : ∀ (b : Fin 1) (ch : Fin 128) (h w : Fin 28), xf (ix4 b ch h w) = yf (ix4 bt (chunkChan ck hck ch) h w))
    (b : Fin 1) (cc : Fin 128) (i k : Fin 28) :
    combine x0 x1 x2 x3 xf (ix4 b cc i k) = combine y0 y1 y2 y3 yf (ix4 bt (chunkChan ck hck cc) i k) := by
  have hcc : cc.val < 128 := cc.isLt
  have c128 : chan 128 (by norm_num) (chunkChan ck hck cc) = chan 128 (by norm_num) cc :=
    Fin.ext (by show (128 * ck + cc.val) % 128 = cc.val % 128; omega)
  have c64 : chan 64 (by norm_num) (chunkChan ck hck cc) = chan 64 (by norm_num) cc :=
    Fin.ext (by show (128 * ck + cc.val) % 64 = cc.val % 64; omega)
  have c32 : chan 32 (by norm_num) (chunkChan ck hck cc) = chan 32 (by norm_num) cc :=
    Fin.ext (by show (128 * ck + cc.val) % 32 = cc.val % 32; omega)
  have c16 : chan 16 (by norm_num) (chunkChan ck hck cc) = chan 16 (by norm_num) cc :=
    Fin.ext (by show (128 * ck + cc.val) % 16 = cc.val % 16; omega)
  show max (x0 (ix4 b (chan 128 (by norm_num) cc) i k) + x1 (ix4 b (chan 64 (by norm_num) cc) i k)
      + x2 (ix4 b (chan 32 (by norm_num) cc) i k) + x3 (ix4 b (chan 16 (by norm_num) cc) i k) + xf (ix4 b cc i k)) 0
    = max (y0 (ix4 bt (chan 128 (by norm_num) (chunkChan ck hck cc)) i k)
      + y1 (ix4 bt (chan 64 (by norm_num) (chunkChan ck hck cc)) i k)
      + y2 (ix4 bt (chan 32 (by norm_num) (chunkChan ck hck cc)) i k)
      + y3 (ix4 bt (chan 16 (by norm_num) (chunkChan ck hck cc)) i k) + yf (ix4 bt (chunkChan ck hck cc) i k)) 0
  rw [h0, h1, h2, h3, hf, c128, c64, c32, c16]

end Cert.PoolSum

end
-- ==== Proof.Region0.lean ====
/-
  Region 0: from the blocks the grid points write back to the whole pooled array.

  The region pools an array `x` of extents [8, 128, 56, 56] with 2 by 2 windows into an array of extents
  [8, 128, 28, 28].  Its grid runs over the batch axis: point `t` fetches the block of batch entry `t` (extents
  [1, 128, 56, 56]), computes the pooled block (extents [1, 128, 28, 28]) and writes it back as batch entry `t` of the
  output.  A block's entry (0, c, h, w) is the array's entry (t, c, h, w): on every axis an element of a block sits at
  block index times block size plus its own coordinate, and the block index is `t` on the batch axis and 0 on the others.

  The pooled value at (b, c, i, j) reads the array only at batch entry `b`, so the pooled block of point `t` is the
  restriction of the pooled whole array to batch entry `t`.  The eight blocks cover the output (entry (b, c, i, j) is
  in the block of point `b`), hence the output array ends as the pooled whole array.
-/
import proofs.«124250_j26637387169835_1_alg».proof.Proof.Gen.KernelIdeal.Frame
import proofs.«124250_j26637387169835_1_alg».proof.Proof.Payload
import proofs.«124250_j26637387169835_1_alg».proof.Proof.Blocks
import Idealize.ShloMosaic.Lib.ValueIdx
import Idealize.ShloMosaic.Lib.Pipeline.Value

set_option maxRecDepth 16384

noncomputable section

namespace Cert.PoolSum

open Idealize.ShloMosaic Idealize.ShloMosaic.TcCoe Idealize.ShloMosaic.ValueIdx Idealize.SL.Sem
open Idealize.ShloMosaic.Pipeline (Dat)
open Cert.KernelIdeal Cert.KernelIdeal.Gen

/- The buffer contents when the region is entered. -/
variable (V : (c : Dev nD) → (b : Ref sig .tc) → Buf (Elt Ideal) ((c : Thread nD τ).loc b))

/-- The block indices of both windows at every grid point: the point's number on the batch axis, zero elsewhere. -/
theorem idx0 : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The batch entry a grid point works on: the grid has eight points. -/
def batch0 (t : Fin cfg0.N) : Fin 8 := ⟨t.val, by have h : t.val < grid0.N := t.isLt; rw [N_0] at h; exact h⟩

/-- Entry (0, c, h, w) of the input block of point `t` is entry (t, c, h, w) of the input array. -/
theorem block0_entry (c : Dev nD) (t : Fin cfg0.N) (b : Fin 1) (ch : Fin 128) (h w : Fin 56) :
    (iblk0 V c 0 t : Vec Ideal S1x128x56x56 .f32) (ix4 b ch h w)
      = (V c main_arg0 : S8x128x56x56.Idx → Elt Ideal .f32) (ix4 (batch0 t) ch h w) := by
  obtain ⟨e0, e1, e2, e3, -⟩ := idx0 t
  unfold iblk0
  rw [View.read_apply]
  show V c main_arg0 _ = V c main_arg0 _
  refine congrArg (V c main_arg0) ?_
  funext a; apply Fin.ext
  have hb : b.val < 1 := b.isLt
  match a with
  | ⟨0, _⟩ => show win0_0.index t (0 : Fin 4) * 1 + 1 * b.val = t.val; omega
  | ⟨1, _⟩ => show win0_0.index t (1 : Fin 4) * 128 + 1 * ch.val = ch.val; omega
  | ⟨2, _⟩ => show win0_0.index t (2 : Fin 4) * 56 + 1 * h.val = h.val; omega
  | ⟨3, _⟩ => show win0_0.index t (3 : Fin 4) * 56 + 1 * w.val = w.val; omega

/-- What point `t` writes back is block `t` of the pooled whole array: the body stores the pooled input block, whose
    window maxima read the same entries as the array's at batch entry `t`. -/
theorem flushed0 (c : Dev nD) (t : Fin cfg0.N) :
    (dat0 V c).flushed 1 t = ((cfg0.win 1).blk t).view.read (Elt Ideal)
      (pooled 2 28 28 (V c main_arg0 : S8x128x56x56.Idx → EReal) : S8x128x28x28.Idx → EReal) := by
  show (cfg0.win 1).cut (grid0.coords t) ((dat0 V c).after 1 t) = _
  rw [after0_1]
  unfold out0_1
  rw [View.canon_unit_zero zero_offsets4]
  simp only [View.ld_unit_zero (S := S1x128x56x56) zero_offsets4]
  rw [pay0]
  obtain ⟨-, -, -, -, e0, e1, e2, e3⟩ := idx0 t
  funext j
  obtain ⟨b, ch, i, k, rfl⟩ : ∃ (b : Fin 1) (ch : Fin 128) (i k : Fin 28), j = ix4 b ch i k :=
    ⟨j 0, j 1, j 2, j 3, eq_ix4 j⟩
  show pooled 2 28 28 (iblk0 V c 0 t : Vec Ideal S1x128x56x56 .f32) (ix4 b ch i k)
    = pooled 2 28 28 (V c main_arg0 : S8x128x56x56.Idx → EReal) (((cfg0.win 1).blk t).view.emb (ix4 b ch i k))
  have hb : b.val < 1 := b.isLt
  have he : ((cfg0.win 1).blk t).view.emb (ix4 b ch i k) = (ix4 (batch0 t) ch i k : S8x128x28x28.Idx) := by
    funext a; apply Fin.ext
    match a with
    | ⟨0, _⟩ => show win0_1.index t (0 : Fin 4) * 1 + 1 * b.val = t.val; omega
    | ⟨1, _⟩ => show win0_1.index t (1 : Fin 4) * 128 + 1 * ch.val = ch.val; omega
    | ⟨2, _⟩ => show win0_1.index t (2 : Fin 4) * 28 + 1 * i.val = i.val; omega
    | ⟨3, _⟩ => show win0_1.index t (3 : Fin 4) * 28 + 1 * k.val = k.val; omega
  rw [he]
  exact pool_congr 2 _ _ b (batch0 t) ch i.val k.val (fun h w => block0_entry V c t b ch h w)

/-- An index of the output array lies in the block of point `t` iff each coordinate lies in the block's range. -/
theorem mem_block0 (t : Fin cfg0.N) (i : S8x128x28x28.Idx) :
    i ∈ ((cfg0.win 1).blk t).view.set ↔ ∀ a : Fin 4, win0_1.index t a * S1x128x28x28.size a ≤ (i a).val
      ∧ (i a).val < win0_1.index t a * S1x128x28x28.size a + S1x128x28x28.size a := by
  show i ∈ ((View.whole main_v0).slice (win0_1.rect t)).set ↔ _
  rw [View.set_slice_whole, Rect.mem_set_unit]
  exact Iff.rfl

/-- The output array after the region: the pooled input array.  Entry (b, c, i, j) is covered by point `b`. -/
theorem final_0 (c : Dev nD) : (dat0 V c).arrAt 1 cfg0.N
    = (pooled 2 28 28 (V c main_arg0 : S8x128x56x56.Idx → EReal) : S8x128x28x28.Idx → EReal) :=
  (dat0 V c).arrAt_eq_of_cover 1 _ (fun t _ => flushed0 V c t) (fun i => by
    have h0 : (i 0).val < 8 := (i 0).isLt
    have h1 : (i 1).val < 128 := (i 1).isLt
    have h2 : (i 2).val < 28 := (i 2).isLt
    have h3 : (i 3).val < 28 := (i 3).isLt
    have hN : (i 0).val < cfg0.N := by rw [show cfg0.N = 8 from N_0]; exact h0
    refine ⟨⟨(i 0).val, hN⟩, flush0_1 _, ?_⟩
    rw [mem_block0]
    obtain ⟨-, -, -, -, e0, e1, e2, e3⟩ := idx0 ⟨(i 0).val, hN⟩
    have e0 : win0_1.index ⟨(i 0).val, hN⟩ (0 : Fin 4) = (i 0).val := e0
    intro a
    match a with
    | ⟨0, _⟩ => show win0_1.index ⟨(i 0).val, hN⟩ (0 : Fin 4) * 1 ≤ (i 0).val ∧ (i 0).val < win0_1.index ⟨(i 0).val, hN⟩ (0 : Fin 4) * 1 + 1; rw [e0]; omega
    | ⟨1, _⟩ => show win0_1.index ⟨(i 0).val, hN⟩ (1 : Fin 4) * 128 ≤ (i 1).val ∧ (i 1).val < win0_1.index ⟨(i 0).val, hN⟩ (1 : Fin 4) * 128 + 128; rw [e1]; omega
    | ⟨2, _⟩ => show win0_1.index ⟨(i 0).val, hN⟩ (2 : Fin 4) * 28 ≤ (i 2).val ∧ (i 2).val < win0_1.index ⟨(i 0).val, hN⟩ (2 : Fin 4) * 28 + 28; rw [e2]; omega
    | ⟨3, _⟩ => show win0_1.index ⟨(i 0).val, hN⟩ (3 : Fin 4) * 28 ≤ (i 3).val ∧ (i 3).val < win0_1.index ⟨(i 0).val, hN⟩ (3 : Fin 4) * 28 + 28; rw [e3]; omega)

end Cert.PoolSum

end
-- ==== Proof.Region1.lean ====
/-
  Region 1: from the blocks the grid points write back to the whole pooled array.

  The region pools an array `x` of extents [8, 64, 112, 112] with 4 by 4 windows into an array of extents
  [8, 64, 28, 28].  Its grid runs over the batch axis: point `t` fetches the block of batch entry `t` (extents
  [1, 64, 112, 112]), computes the pooled block (extents [1, 64, 28, 28]) and writes it back as batch entry `t` of the
  output.  A block's entry (0, c, h, w) is the array's entry (t, c, h, w): the block index is `t` on the batch axis and
  0 on the others, and an element sits at block index times block size plus its own coordinate.

  The pooled value at (b, c, i, j) reads the array only at batch entry `b`, so the pooled block of point `t` is the
  restriction of the pooled whole array to batch entry `t`; the eight blocks cover the output.
-/
import proofs.«124250_j26637387169835_1_alg».proof.Proof.Gen.KernelIdeal.Frame
import proofs.«124250_j26637387169835_1_alg».proof.Proof.Payload
import proofs.«124250_j26637387169835_1_alg».proof.Proof.Blocks
import Idealize.ShloMosaic.Lib.ValueIdx
import Idealize.ShloMosaic.Lib.Pipeline.Value

set_option maxRecDepth 16384

noncomputable section

namespace Cert.PoolSum

open Idealize.ShloMosaic Idealize.ShloMosaic.TcCoe Idealize.ShloMosaic.ValueIdx Idealize.SL.Sem
open Idealize.ShloMosaic.Pipeline (Dat)
open Cert.KernelIdeal Cert.KernelIdeal.Gen

/- The buffer contents when the region is entered. -/
variable (V : (c : Dev nD) → (b : Ref sig .tc) → Buf (Elt Ideal) ((c : Thread nD τ).loc b))

/-- The block indices of both windows at every grid point: the point's number on the batch axis, zero elsewhere. -/
theorem idx1 : ∀ t : Fin cfg1.N, win1_0.index t (0 : Fin 4) = t.val ∧ win1_0.index t (1 : Fin 4) = 0
    ∧ win1_0.index t (2 : Fin 4) = 0 ∧ win1_0.index t (3 : Fin 4) = 0
    ∧ win1_1.index t (0 : Fin 4) = t.val ∧ win1_1.index t (1 : Fin 4) = 0
    ∧ win1_1.index t (2 : Fin 4) = 0 ∧ win1_1.index t (3 : Fin 4) = 0 :=
  (by decide +kernel : ∀ t : Fin grid1.N, _)

/-- The batch entry a grid point works on: the grid has eight points. -/
def batch1 (t : Fin cfg1.N) : Fin 8 := ⟨t.val, by have h : t.val < grid1.N := t.isLt; rw [N_1] at h; exact h⟩

/-- Entry (0, c, h, w) of the input block of point `t` is entry (t, c, h, w) of the input array. -/
theorem block1_entry (c : Dev nD) (t : Fin cfg1.N) (b : Fin 1) (ch : Fin 64) (h w : Fin 112) :
    (iblk1 V c 0 t : Vec Ideal S1x64x112x112 .f32) (ix4 b ch h w)
      = (V c main_arg1 : S8x64x112x112.Idx → Elt Ideal .f32) (ix4 (batch1 t) ch h w) := by
  obtain ⟨e0, e1, e2, e3, -⟩ := idx1 t
  unfold iblk1
  rw [View.read_apply]
  show V c main_arg1 _ = V c main_arg1 _
  refine congrArg (V c main_arg1) ?_
  funext a; apply Fin.ext
  have hb : b.val < 1 := b.isLt
  match a with
  | ⟨0, _⟩ => show win1_0.index t (0 : Fin 4) * 1 + 1 * b.val = t.val; omega
  | ⟨1, _⟩ => show win1_0.index t (1 : Fin 4) * 64 + 1 * ch.val = ch.val; omega
  | ⟨2, _⟩ => show win1_0.index t (2 : Fin 4) * 112 + 1 * h.val = h.val; omega
  | ⟨3, _⟩ => show win1_0.index t (3 : Fin 4) * 112 + 1 * w.val = w.val; omega

/-- What point `t` writes back is block `t` of the pooled whole array. -/
theorem flushed1 (c : Dev nD) (t : Fin cfg1.N) :
    (dat1 V c).flushed 1 t = ((cfg1.win 1).blk t).view.read (Elt Ideal)
      (pooled 4 28 28 (V c main_arg1 : S8x64x112x112.Idx → EReal) : S8x64x28x28.Idx → EReal) := by
  show (cfg1.win 1).cut (grid1.coords t) ((dat1 V c).after 1 t) = _
  rw [after1_1]
  unfold out1_1
  rw [View.canon_unit_zero zero_offsets4]
  simp only [View.ld_unit_zero (S := S1x64x112x112) zero_offsets4]
  rw [pay1]
  obtain ⟨-, -, -, -, e0, e1, e2, e3⟩ := idx1 t
  funext j
  obtain ⟨b, ch, i, k, rfl⟩ : ∃ (b : Fin 1) (ch : Fin 64) (i k : Fin 28), j = ix4 b ch i k :=
    ⟨j 0, j 1, j 2, j 3, eq_ix4 j⟩
  show pooled 4 28 28 (iblk1 V c 0 t : Vec Ideal S1x64x112x112 .f32) (ix4 b ch i k)
    = pooled 4 28 28 (V c main_arg1 : S8x64x112x112.Idx → EReal) (((cfg1.win 1).blk t).view.emb (ix4 b ch i k))
  have hb : b.val < 1 := b.isLt
  have he : ((cfg1.win 1).blk t).view.emb (ix4 b ch i k) = (ix4 (batch1 t) ch i k : S8x64x28x28.Idx) := by
    funext a; apply Fin.ext
    match a with
    | ⟨0, _⟩ => show win1_1.index t (0 : Fin 4) * 1 + 1 * b.val = t.val; omega
    | ⟨1, _⟩ => show win1_1.index t (1 : Fin 4) * 64 + 1 * ch.val = ch.val; omega
    | ⟨2, _⟩ => show win1_1.index t (2 : Fin 4) * 28 + 1 * i.val = i.val; omega
    | ⟨3, _⟩ => show win1_1.index t (3 : Fin 4) * 28 + 1 * k.val = k.val; omega
  rw [he]
  exact pool_congr 4 _ _ b (batch1 t) ch i.val k.val (fun h w => block1_entry V c t b ch h w)

/-- An index of the output array lies in the block of point `t` iff each coordinate lies in the block's range. -/
theorem mem_block1 (t : Fin cfg1.N) (i : S8x64x28x28.Idx) :
    i ∈ ((cfg1.win 1).blk t).view.set ↔ ∀ a : Fin 4, win1_1.index t a * S1x64x28x28.size a ≤ (i a).val
      ∧ (i a).val < win1_1.index t a * S1x64x28x28.size a + S1x64x28x28.size a := by
  show i ∈ ((View.whole main_v1).slice (win1_1.rect t)).set ↔ _
  rw [View.set_slice_whole, Rect.mem_set_unit]
  exact Iff.rfl

/-- The output array after the region: the pooled input array.  Entry (b, c, i, j) is covered by point `b`. -/
theorem final_1 (c : Dev nD) : (dat1 V c).arrAt 1 cfg1.N
    = (pooled 4 28 28 (V c main_arg1 : S8x64x112x112.Idx → EReal) : S8x64x28x28.Idx → EReal) :=
  (dat1 V c).arrAt_eq_of_cover 1 _ (fun t _ => flushed1 V c t) (fun i => by
    have h0 : (i 0).val < 8 := (i 0).isLt
    have h1 : (i 1).val < 64 := (i 1).isLt
    have h2 : (i 2).val < 28 := (i 2).isLt
    have h3 : (i 3).val < 28 := (i 3).isLt
    have hN : (i 0).val < cfg1.N := by rw [show cfg1.N = 8 from N_1]; exact h0
    refine ⟨⟨(i 0).val, hN⟩, flush1_1 _, ?_⟩
    rw [mem_block1]
    obtain ⟨-, -, -, -, e0, e1, e2, e3⟩ := idx1 ⟨(i 0).val, hN⟩
    have e0 : win1_1.index ⟨(i 0).val, hN⟩ (0 : Fin 4) = (i 0).val := e0
    intro a
    match a with
    | ⟨0, _⟩ => show win1_1.index ⟨(i 0).val, hN⟩ (0 : Fin 4) * 1 ≤ (i 0).val ∧ (i 0).val < win1_1.index ⟨(i 0).val, hN⟩ (0 : Fin 4) * 1 + 1; rw [e0]; omega
    | ⟨1, _⟩ => show win1_1.index ⟨(i 0).val, hN⟩ (1 : Fin 4) * 64 ≤ (i 1).val ∧ (i 1).val < win1_1.index ⟨(i 0).val, hN⟩ (1 : Fin 4) * 64 + 64; rw [e1]; omega
    | ⟨2, _⟩ => show win1_1.index ⟨(i 0).val, hN⟩ (2 : Fin 4) * 28 ≤ (i 2).val ∧ (i 2).val < win1_1.index ⟨(i 0).val, hN⟩ (2 : Fin 4) * 28 + 28; rw [e2]; omega
    | ⟨3, _⟩ => show win1_1.index ⟨(i 0).val, hN⟩ (3 : Fin 4) * 28 ≤ (i 3).val ∧ (i 3).val < win1_1.index ⟨(i 0).val, hN⟩ (3 : Fin 4) * 28 + 28; rw [e3]; omega)

end Cert.PoolSum

end
-- ==== Proof.Region2.lean ====
/-
  Region 2: from the blocks the grid points write back to the whole pooled array.

  The region pools an array `x` of extents [8, 32, 224, 224] with 8 by 8 windows into an array of extents
  [8, 32, 28, 28].  Its grid runs over the batch axis: point `t` fetches the block of batch entry `t` (extents
  [1, 32, 224, 224]), computes the pooled block (extents [1, 32, 28, 28]) and writes it back as batch entry `t` of the
  output.  A block's entry (0, c, h, w) is the array's entry (t, c, h, w): the block index is `t` on the batch axis and
  0 on the others, and an element sits at block index times block size plus its own coordinate.

  The pooled value at (b, c, i, j) reads the array only at batch entry `b`, so the pooled block of point `t` is the
  restriction of the pooled whole array to batch entry `t`; the eight blocks cover the output.
-/
import proofs.«124250_j26637387169835_1_alg».proof.Proof.Gen.KernelIdeal.Frame
import proofs.«124250_j26637387169835_1_alg».proof.Proof.Payload
import proofs.«124250_j26637387169835_1_alg».proof.Proof.Blocks
import Idealize.ShloMosaic.Lib.ValueIdx
import Idealize.ShloMosaic.Lib.Pipeline.Value

set_option maxRecDepth 16384

noncomputable section

namespace Cert.PoolSum

open Idealize.ShloMosaic Idealize.ShloMosaic.TcCoe Idealize.ShloMosaic.ValueIdx Idealize.SL.Sem
open Idealize.ShloMosaic.Pipeline (Dat)
open Cert.KernelIdeal Cert.KernelIdeal.Gen

/- The buffer contents when the region is entered. -/
variable (V : (c : Dev nD) → (b : Ref sig .tc) → Buf (Elt Ideal) ((c : Thread nD τ).loc b))

/-- The block indices of both windows at every grid point: the point's number on the batch axis, zero elsewhere. -/
theorem idx2 : ∀ t : Fin cfg2.N, win2_0.index t (0 : Fin 4) = t.val ∧ win2_0.index t (1 : Fin 4) = 0
    ∧ win2_0.index t (2 : Fin 4) = 0 ∧ win2_0.index t (3 : Fin 4) = 0
    ∧ win2_1.index t (0 : Fin 4) = t.val ∧ win2_1.index t (1 : Fin 4) = 0
    ∧ win2_1.index t (2 : Fin 4) = 0 ∧ win2_1.index t (3 : Fin 4) = 0 :=
  (by decide +kernel : ∀ t : Fin grid2.N, _)

/-- The batch entry a grid point works on: the grid has eight points. -/
def batch2 (t : Fin cfg2.N) : Fin 8 := ⟨t.val, by have h : t.val < grid2.N := t.isLt; rw [N_2] at h; exact h⟩

/-- Entry (0, c, h, w) of the input block of point `t` is entry (t, c, h, w) of the input array. -/
theorem block2_entry (c : Dev nD) (t : Fin cfg2.N) (b : Fin 1) (ch : Fin 32) (h w : Fin 224) :
    (iblk2 V c 0 t : Vec Ideal S1x32x224x224 .f32) (ix4 b ch h w)
      = (V c main_arg2 : S8x32x224x224.Idx → Elt Ideal .f32) (ix4 (batch2 t) ch h w) := by
  obtain ⟨e0, e1, e2, e3, -⟩ := idx2 t
  unfold iblk2
  rw [View.read_apply]
  show V c main_arg2 _ = V c main_arg2 _
  refine congrArg (V c main_arg2) ?_
  funext a; apply Fin.ext
  have hb : b.val < 1 := b.isLt
  match a with
  | ⟨0, _⟩ => show win2_0.index t (0 : Fin 4) * 1 + 1 * b.val = t.val; omega
  | ⟨1, _⟩ => show win2_0.index t (1 : Fin 4) * 32 + 1 * ch.val = ch.val; omega
  | ⟨2, _⟩ => show win2_0.index t (2 : Fin 4) * 224 + 1 * h.val = h.val; omega
  | ⟨3, _⟩ => show win2_0.index t (3 : Fin 4) * 224 + 1 * w.val = w.val; omega

/-- What point `t` writes back is block `t` of the pooled whole array. -/
theorem flushed2 (c : Dev nD) (t : Fin cfg2.N) :
    (dat2 V c).flushed 1 t = ((cfg2.win 1).blk t).view.read (Elt Ideal)
      (pooled 8 28 28 (V c main_arg2 : S8x32x224x224.Idx → EReal) : S8x32x28x28.Idx → EReal) := by
  show (cfg2.win 1).cut (grid2.coords t) ((dat2 V c).after 1 t) = _
  rw [after2_1]
  unfold out2_1
  rw [View.canon_unit_zero zero_offsets4]
  simp only [View.ld_unit_zero (S := S1x32x224x224) zero_offsets4]
  rw [pay2]
  obtain ⟨-, -, -, -, e0, e1, e2, e3⟩ := idx2 t
  funext j
  obtain ⟨b, ch, i, k, rfl⟩ : ∃ (b : Fin 1) (ch : Fin 32) (i k : Fin 28), j = ix4 b ch i k :=
    ⟨j 0, j 1, j 2, j 3, eq_ix4 j⟩
  show pooled 8 28 28 (iblk2 V c 0 t : Vec Ideal S1x32x224x224 .f32) (ix4 b ch i k)
    = pooled 8 28 28 (V c main_arg2 : S8x32x224x224.Idx → EReal) (((cfg2.win 1).blk t).view.emb (ix4 b ch i k))
  have hb : b.val < 1 := b.isLt
  have he : ((cfg2.win 1).blk t).view.emb (ix4 b ch i k) = (ix4 (batch2 t) ch i k : S8x32x28x28.Idx) := by
    funext a; apply Fin.ext
    match a with
    | ⟨0, _⟩ => show win2_1.index t (0 : Fin 4) * 1 + 1 * b.val = t.val; omega
    | ⟨1, _⟩ => show win2_1.index t (1 : Fin 4) * 32 + 1 * ch.val = ch.val; omega
    | ⟨2, _⟩ => show win2_1.index t (2 : Fin 4) * 28 + 1 * i.val = i.val; omega
    | ⟨3, _⟩ => show win2_1.index t (3 : Fin 4) * 28 + 1 * k.val = k.val; omega
  rw [he]
  exact pool_congr 8 _ _ b (batch2 t) ch i.val k.val (fun h w => block2_entry V c t b ch h w)

/-- An index of the output array lies in the block of point `t` iff each coordinate lies in the block's range. -/
theorem mem_block2 (t : Fin cfg2.N) (i : S8x32x28x28.Idx) :
    i ∈ ((cfg2.win 1).blk t).view.set ↔ ∀ a : Fin 4, win2_1.index t a * S1x32x28x28.size a ≤ (i a).val
      ∧ (i a).val < win2_1.index t a * S1x32x28x28.size a + S1x32x28x28.size a := by
  show i ∈ ((View.whole main_v2).slice (win2_1.rect t)).set ↔ _
  rw [View.set_slice_whole, Rect.mem_set_unit]
  exact Iff.rfl

/-- The output array after the region: the pooled input array.  Entry (b, c, i, j) is covered by point `b`. -/
theorem final_2 (c : Dev nD) : (dat2 V c).arrAt 1 cfg2.N
    = (pooled 8 28 28 (V c main_arg2 : S8x32x224x224.Idx → EReal) : S8x32x28x28.Idx → EReal) :=
  (dat2 V c).arrAt_eq_of_cover 1 _ (fun t _ => flushed2 V c t) (fun i => by
    have h0 : (i 0).val < 8 := (i 0).isLt
    have h1 : (i 1).val < 32 := (i 1).isLt
    have h2 : (i 2).val < 28 := (i 2).isLt
    have h3 : (i 3).val < 28 := (i 3).isLt
    have hN : (i 0).val < cfg2.N := by rw [show cfg2.N = 8 from N_2]; exact h0
    refine ⟨⟨(i 0).val, hN⟩, flush2_1 _, ?_⟩
    rw [mem_block2]
    obtain ⟨-, -, -, -, e0, e1, e2, e3⟩ := idx2 ⟨(i 0).val, hN⟩
    have e0 : win2_1.index ⟨(i 0).val, hN⟩ (0 : Fin 4) = (i 0).val := e0
    intro a
    match a with
    | ⟨0, _⟩ => show win2_1.index ⟨(i 0).val, hN⟩ (0 : Fin 4) * 1 ≤ (i 0).val ∧ (i 0).val < win2_1.index ⟨(i 0).val, hN⟩ (0 : Fin 4) * 1 + 1; rw [e0]; omega
    | ⟨1, _⟩ => show win2_1.index ⟨(i 0).val, hN⟩ (1 : Fin 4) * 32 ≤ (i 1).val ∧ (i 1).val < win2_1.index ⟨(i 0).val, hN⟩ (1 : Fin 4) * 32 + 32; rw [e1]; omega
    | ⟨2, _⟩ => show win2_1.index ⟨(i 0).val, hN⟩ (2 : Fin 4) * 28 ≤ (i 2).val ∧ (i 2).val < win2_1.index ⟨(i 0).val, hN⟩ (2 : Fin 4) * 28 + 28; rw [e2]; omega
    | ⟨3, _⟩ => show win2_1.index ⟨(i 0).val, hN⟩ (3 : Fin 4) * 28 ≤ (i 3).val ∧ (i 3).val < win2_1.index ⟨(i 0).val, hN⟩ (3 : Fin 4) * 28 + 28; rw [e3]; omega)

end Cert.PoolSum

end
-- ==== Proof.Region3.lean ====
/-
  Region 3: from the blocks the grid points write back to the whole pooled array.

  The region pools an array `x` of extents [8, 16, 448, 448] with 16 by 16 windows into an array of extents
  [8, 16, 28, 28].  Its grid runs over the batch axis: point `t` fetches the block of batch entry `t` (extents
  [1, 16, 448, 448]), computes the pooled block (extents [1, 16, 28, 28]) and writes it back as batch entry `t` of the
  output.  A block's entry (0, c, h, w) is the array's entry (t, c, h, w): the block index is `t` on the batch axis and
  0 on the others, and an element sits at block index times block size plus its own coordinate.

  The pooled value at (b, c, i, j) reads the array only at batch entry `b`, so the pooled block of point `t` is the
  restriction of the pooled whole array to batch entry `t`; the eight blocks cover the output.
-/
import proofs.«124250_j26637387169835_1_alg».proof.Proof.Gen.KernelIdeal.Frame
import proofs.«124250_j26637387169835_1_alg».proof.Proof.Payload
import proofs.«124250_j26637387169835_1_alg».proof.Proof.Blocks
import Idealize.ShloMosaic.Lib.ValueIdx
import Idealize.ShloMosaic.Lib.Pipeline.Value

set_option maxRecDepth 16384

noncomputable section

namespace Cert.PoolSum

open Idealize.ShloMosaic Idealize.ShloMosaic.TcCoe Idealize.ShloMosaic.ValueIdx Idealize.SL.Sem
open Idealize.ShloMosaic.Pipeline (Dat)
open Cert.KernelIdeal Cert.KernelIdeal.Gen

/- The buffer contents when the region is entered. -/
variable (V : (c : Dev nD) → (b : Ref sig .tc) → Buf (Elt Ideal) ((c : Thread nD τ).loc b))

/-- The block indices of both windows at every grid point: the point's number on the batch axis, zero elsewhere. -/
theorem idx3 : ∀ t : Fin cfg3.N, win3_0.index t (0 : Fin 4) = t.val ∧ win3_0.index t (1 : Fin 4) = 0
    ∧ win3_0.index t (2 : Fin 4) = 0 ∧ win3_0.index t (3 : Fin 4) = 0
    ∧ win3_1.index t (0 : Fin 4) = t.val ∧ win3_1.index t (1 : Fin 4) = 0
    ∧ win3_1.index t (2 : Fin 4) = 0 ∧ win3_1.index t (3 : Fin 4) = 0 :=
  (by decide +kernel : ∀ t : Fin grid3.N, _)

/-- The batch entry a grid point works on: the grid has eight points. -/
def batch3 (t : Fin cfg3.N) : Fin 8 := ⟨t.val, by have h : t.val < grid3.N := t.isLt; rw [N_3] at h; exact h⟩

/-- Entry (0, c, h, w) of the input block of point `t` is entry (t, c, h, w) of the input array. -/
theorem block3_entry (c : Dev nD) (t : Fin cfg3.N) (b : Fin 1) (ch : Fin 16) (h w : Fin 448) :
    (iblk3 V c 0 t : Vec Ideal S1x16x448x448 .f32) (ix4 b ch h w)
      = (V c main_arg3 : S8x16x448x448.Idx → Elt Ideal .f32) (ix4 (batch3 t) ch h w) := by
  obtain ⟨e0, e1, e2, e3, -⟩ := idx3 t
  unfold iblk3
  rw [View.read_apply]
  show V c main_arg3 _ = V c main_arg3 _
  refine congrArg (V c main_arg3) ?_
  funext a; apply Fin.ext
  have hb : b.val < 1 := b.isLt
  match a with
  | ⟨0, _⟩ => show win3_0.index t (0 : Fin 4) * 1 + 1 * b.val = t.val; omega
  | ⟨1, _⟩ => show win3_0.index t (1 : Fin 4) * 16 + 1 * ch.val = ch.val; omega
  | ⟨2, _⟩ => show win3_0.index t (2 : Fin 4) * 448 + 1 * h.val = h.val; omega
  | ⟨3, _⟩ => show win3_0.index t (3 : Fin 4) * 448 + 1 * w.val = w.val; omega

/-- What point `t` writes back is block `t` of the pooled whole array. -/
theorem flushed3 (c : Dev nD) (t : Fin cfg3.N) :
    (dat3 V c).flushed 1 t = ((cfg3.win 1).blk t).view.read (Elt Ideal)
      (pooled 16 28 28 (V c main_arg3 : S8x16x448x448.Idx → EReal) : S8x16x28x28.Idx → EReal) := by
  show (cfg3.win 1).cut (grid3.coords t) ((dat3 V c).after 1 t) = _
  rw [after3_1]
  unfold out3_1
  rw [View.canon_unit_zero zero_offsets4]
  simp only [View.ld_unit_zero (S := S1x16x448x448) zero_offsets4]
  rw [pay3]
  obtain ⟨-, -, -, -, e0, e1, e2, e3⟩ := idx3 t
  funext j
  obtain ⟨b, ch, i, k, rfl⟩ : ∃ (b : Fin 1) (ch : Fin 16) (i k : Fin 28), j = ix4 b ch i k :=
    ⟨j 0, j 1, j 2, j 3, eq_ix4 j⟩
  show pooled 16 28 28 (iblk3 V c 0 t : Vec Ideal S1x16x448x448 .f32) (ix4 b ch i k)
    = pooled 16 28 28 (V c main_arg3 : S8x16x448x448.Idx → EReal) (((cfg3.win 1).blk t).view.emb (ix4 b ch i k))
  have hb : b.val < 1 := b.isLt
  have he : ((cfg3.win 1).blk t).view.emb (ix4 b ch i k) = (ix4 (batch3 t) ch i k : S8x16x28x28.Idx) := by
    funext a; apply Fin.ext
    match a with
    | ⟨0, _⟩ => show win3_1.index t (0 : Fin 4) * 1 + 1 * b.val = t.val; omega
    | ⟨1, _⟩ => show win3_1.index t (1 : Fin 4) * 16 + 1 * ch.val = ch.val; omega
    | ⟨2, _⟩ => show win3_1.index t (2 : Fin 4) * 28 + 1 * i.val = i.val; omega
    | ⟨3, _⟩ => show win3_1.index t (3 : Fin 4) * 28 + 1 * k.val = k.val; omega
  rw [he]
  exact pool_congr 16 _ _ b (batch3 t) ch i.val k.val (fun h w => block3_entry V c t b ch h w)

/-- An index of the output array lies in the block of point `t` iff each coordinate lies in the block's range. -/
theorem mem_block3 (t : Fin cfg3.N) (i : S8x16x28x28.Idx) :
    i ∈ ((cfg3.win 1).blk t).view.set ↔ ∀ a : Fin 4, win3_1.index t a * S1x16x28x28.size a ≤ (i a).val
      ∧ (i a).val < win3_1.index t a * S1x16x28x28.size a + S1x16x28x28.size a := by
  show i ∈ ((View.whole main_v3).slice (win3_1.rect t)).set ↔ _
  rw [View.set_slice_whole, Rect.mem_set_unit]
  exact Iff.rfl

/-- The output array after the region: the pooled input array.  Entry (b, c, i, j) is covered by point `b`. -/
theorem final_3 (c : Dev nD) : (dat3 V c).arrAt 1 cfg3.N
    = (pooled 16 28 28 (V c main_arg3 : S8x16x448x448.Idx → EReal) : S8x16x28x28.Idx → EReal) :=
  (dat3 V c).arrAt_eq_of_cover 1 _ (fun t _ => flushed3 V c t) (fun i => by
    have h0 : (i 0).val < 8 := (i 0).isLt
    have h1 : (i 1).val < 16 := (i 1).isLt
    have h2 : (i 2).val < 28 := (i 2).isLt
    have h3 : (i 3).val < 28 := (i 3).isLt
    have hN : (i 0).val < cfg3.N := by rw [show cfg3.N = 8 from N_3]; exact h0
    refine ⟨⟨(i 0).val, hN⟩, flush3_1 _, ?_⟩
    rw [mem_block3]
    obtain ⟨-, -, -, -, e0, e1, e2, e3⟩ := idx3 ⟨(i 0).val, hN⟩
    have e0 : win3_1.index ⟨(i 0).val, hN⟩ (0 : Fin 4) = (i 0).val := e0
    intro a
    match a with
    | ⟨0, _⟩ => show win3_1.index ⟨(i 0).val, hN⟩ (0 : Fin 4) * 1 ≤ (i 0).val ∧ (i 0).val < win3_1.index ⟨(i 0).val, hN⟩ (0 : Fin 4) * 1 + 1; rw [e0]; omega
    | ⟨1, _⟩ => show win3_1.index ⟨(i 0).val, hN⟩ (1 : Fin 4) * 16 ≤ (i 1).val ∧ (i 1).val < win3_1.index ⟨(i 0).val, hN⟩ (1 : Fin 4) * 16 + 16; rw [e1]; omega
    | ⟨2, _⟩ => show win3_1.index ⟨(i 0).val, hN⟩ (2 : Fin 4) * 28 ≤ (i 2).val ∧ (i 2).val < win3_1.index ⟨(i 0).val, hN⟩ (2 : Fin 4) * 28 + 28; rw [e2]; omega
    | ⟨3, _⟩ => show win3_1.index ⟨(i 0).val, hN⟩ (3 : Fin 4) * 28 ≤ (i 3).val ∧ (i 3).val < win3_1.index ⟨(i 0).val, hN⟩ (3 : Fin 4) * 28 + 28; rw [e3]; omega)

end Cert.PoolSum

end
-- ==== Proof.Region4.lean ====
/-
  Region 4: from the blocks the grid points write back to the whole combined array.

  The region adds the four pooled arrays (extents [8, 128, 28, 28], [8, 64, 28, 28], [8, 32, 28, 28], [8, 16, 28, 28]),
  each repeated along the channel axis, to a fifth array of extents [8, 256, 28, 28] and clamps the sum below at zero.
  Its grid has 8 x 2 points: point `t` works on batch entry `t / 2` and on chunk `t % 2` of 128 output channels.  It
  fetches batch entry `t / 2` of each pooled array (all of its channels: extents [1, C, 28, 28]) and the block of the
  fifth array at batch entry `t / 2`, channels `128 * (t % 2) … 128 * (t % 2) + 127` (extents [1, 128, 28, 28]), and
  writes the combined block back to the same place of the output.  An element of a block sits, on each axis, at block
  index times block size plus its own coordinate; the block indices are `t / 2` on the batch axis, `t % 2` on the
  channel axis of the fifth array and of the output, and 0 elsewhere.

  The combined value of the five blocks at (0, cc, i, j) is the combined value of the five arrays at
  (t / 2, 128 * (t % 2) + cc, i, j), so point `t` writes back the restriction of the combined whole array to its block.
  The sixteen blocks cover the output: entry (b, ch, i, j) is in the block of point `2 * b + ch / 128`.
-/
import proofs.«124250_j26637387169835_1_alg».proof.Proof.Gen.KernelIdeal.Frame
import proofs.«124250_j26637387169835_1_alg».proof.Proof.Payload
import proofs.«124250_j26637387169835_1_alg».proof.Proof.Blocks
import Idealize.ShloMosaic.Lib.ValueIdx
import Idealize.ShloMosaic.Lib.Pipeline.Value

set_option maxRecDepth 16384

noncomputable section

namespace Cert.PoolSum

open Idealize.ShloMosaic Idealize.ShloMosaic.TcCoe Idealize.ShloMosaic.ValueIdx Idealize.SL.Sem
open Idealize.ShloMosaic.Pipeline (Dat)
open Cert.KernelIdeal Cert.KernelIdeal.Gen

/- The buffer contents when the region is entered. -/
variable (V : (c : Dev nD) → (b : Ref sig .tc) → Buf (Elt Ideal) ((c : Thread nD τ).loc b))

/-- The block indices of the six windows at every grid point: `t / 2` on the batch axis; on the channel axis `t % 2`
    for the fifth array and the output, zero for the pooled arrays; zero on the two spatial axes. -/
theorem idx4 : ∀ t : Fin cfg4.N,
    (win4_0.index t (0 : Fin 4) = t.val / 2 ∧ win4_0.index t (1 : Fin 4) = 0 ∧ win4_0.index t (2 : Fin 4) = 0 ∧ win4_0.index t (3 : Fin 4) = 0)
    ∧ (win4_1.index t (0 : Fin 4) = t.val / 2 ∧ win4_1.index t (1 : Fin 4) = 0 ∧ win4_1.index t (2 : Fin 4) = 0 ∧ win4_1.index t (3 : Fin 4) = 0)
    ∧ (win4_2.index t (0 : Fin 4) = t.val / 2 ∧ win4_2.index t (1 : Fin 4) = 0 ∧ win4_2.index t (2 : Fin 4) = 0 ∧ win4_2.index t (3 : Fin 4) = 0)
    ∧ (win4_3.index t (0 : Fin 4) = t.val / 2 ∧ win4_3.index t (1 : Fin 4) = 0 ∧ win4_3.index t (2 : Fin 4) = 0 ∧ win4_3.index t (3 : Fin 4) = 0)
    ∧ (win4_4.index t (0 : Fin 4) = t.val / 2 ∧ win4_4.index t (1 : Fin 4) = t.val % 2 ∧ win4_4.index t (2 : Fin 4) = 0 ∧ win4_4.index t (3 : Fin 4) = 0)
    ∧ (win4_5.index t (0 : Fin 4) = t.val / 2 ∧ win4_5.index t (1 : Fin 4) = t.val % 2 ∧ win4_5.index t (2 : Fin 4) = 0 ∧ win4_5.index t (3 : Fin 4) = 0) :=
  (by decide +kernel : ∀ t : Fin grid4.N, _)

/-- The batch entry a grid point works on: the grid has sixteen points, two to a batch entry. -/
def batch4 (t : Fin cfg4.N) : Fin 8 := ⟨t.val / 2, by have h : t.val < grid4.N := t.isLt; rw [N_4] at h; omega⟩

/-- The chunk a grid point works on is one of two. -/
theorem chunk4_lt (t : Fin cfg4.N) : t.val % 2 < 2 := Nat.mod_lt _ (by norm_num)

/-- Entry (0, c, h, w) of the first pooled block of point `t` is entry (t / 2, c, h, w) of the first pooled array. -/
theorem block4_0_entry (c : Dev nD) (t : Fin cfg4.N) (b : Fin 1) (ch : Fin 128) (h w : Fin 28) :
    (iblk4 V c 0 t : Vec Ideal S1x128x28x28 .f32) (ix4 b ch h w)
      = (V c main_v0 : S8x128x28x28.Idx → Elt Ideal .f32) (ix4 (batch4 t) ch h w) := by
  obtain ⟨⟨e0, e1, e2, e3⟩, -⟩ := idx4 t
  unfold iblk4
  rw [View.read_apply]
  show V c main_v0 _ = V c main_v0 _
  refine congrArg (V c main_v0) ?_
  funext a; apply Fin.ext
  have hb : b.val < 1 := b.isLt
  match a with
  | ⟨0, _⟩ => show win4_0.index t (0 : Fin 4) * 1 + 1 * b.val = t.val / 2; omega
  | ⟨1, _⟩ => show win4_0.index t (1 : Fin 4) * 128 + 1 * ch.val = ch.val; omega
  | ⟨2, _⟩ => show win4_0.index t (2 : Fin 4) * 28 + 1 * h.val = h.val; omega
  | ⟨3, _⟩ => show win4_0.index t (3 : Fin 4) * 28 + 1 * w.val = w.val; omega

/-- The same for the second pooled array (64 channels). -/
theorem block4_1_entry (c : Dev nD) (t : Fin cfg4.N) (b : Fin 1) (ch : Fin 64) (h w : Fin 28) :
    (iblk4 V c 1 t : Vec Ideal S1x64x28x28 .f32) (ix4 b ch h w)
      = (V c main_v1 : S8x64x28x28.Idx → Elt Ideal .f32) (ix4 (batch4 t) ch h w) := by
  obtain ⟨-, ⟨e0, e1, e2, e3⟩, -⟩ := idx4 t
  unfold iblk4
  rw [View.read_apply]
  show V c main_v1 _ = V c main_v1 _
  refine congrArg (V c main_v1) ?_
  funext a; apply Fin.ext
  have hb : b.val < 1 := b.isLt
  match a with
  | ⟨0, _⟩ => show win4_1.index t (0 : Fin 4) * 1 + 1 * b.val = t.val / 2; omega
  | ⟨1, _⟩ => show win4_1.index t (1 : Fin 4) * 64 + 1 * ch.val = ch.val; omega
  | ⟨2, _⟩ => show win4_1.index t (2 : Fin 4) * 28 + 1 * h.val = h.val; omega
  | ⟨3, _⟩ => show win4_1.index t (3 : Fin 4) * 28 + 1 * w.val = w.val; omega

/-- The same for the third pooled array (32 channels). -/
theorem block4_2_entry (c : Dev nD) (t : Fin cfg4.N) (b : Fin 1) (ch : Fin 32) (h w : Fin 28) :
    (iblk4 V c 2 t : Vec Ideal S1x32x28x28 .f32) (ix4 b ch h w)
      = (V c main_v2 : S8x32x28x28.Idx → Elt Ideal .f32) (ix4 (batch4 t) ch h w) := by
  obtain ⟨-, -, ⟨e0, e1, e2, e3⟩, -⟩ := idx4 t
  unfold iblk4
  rw [View.read_apply]
  show V c main_v2 _ = V c main_v2 _
  refine congrArg (V c main_v2) ?_
  funext a; apply Fin.ext
  have hb : b.val < 1 := b.isLt
  match a with
  | ⟨0, _⟩ => show win4_2.index t (0 : Fin 4) * 1 + 1 * b.val = t.val / 2; omega
  | ⟨1, _⟩ => show win4_2.index t (1 : Fin 4) * 32 + 1 * ch.val = ch.val; omega
  | ⟨2, _⟩ => show win4_2.index t (2 : Fin 4) * 28 + 1 * h.val = h.val; omega
  | ⟨3, _⟩ => show win4_2.index t (3 : Fin 4) * 28 + 1 * w.val = w.val; omega

/-- The same for the fourth pooled array (16 channels). -/
theorem block4_3_entry (c : Dev nD) (t : Fin cfg4.N) (b : Fin 1) (ch : Fin 16) (h w : Fin 28) :
    (iblk4 V c 3 t : Vec Ideal S1x16x28x28 .f32) (ix4 b ch h w)
      = (V c main_v3 : S8x16x28x28.Idx → Elt Ideal .f32) (ix4 (batch4 t) ch h w) := by
  obtain ⟨-, -, -, ⟨e0, e1, e2, e3⟩, -⟩ := idx4 t
  unfold iblk4
  rw [View.read_apply]
  show V c main_v3 _ = V c main_v3 _
  refine congrArg (V c main_v3) ?_
  funext a; apply Fin.ext
  have hb : b.val < 1 := b.isLt
  match a with
  | ⟨0, _⟩ => show win4_3.index t (0 : Fin 4) * 1 + 1 * b.val = t.val / 2; omega
  | ⟨1, _⟩ => show win4_3.index t (1 : Fin 4) * 16 + 1 * ch.val = ch.val; omega
  | ⟨2, _⟩ => show win4_3.index t (2 : Fin 4) * 28 + 1 * h.val = h.val; omega
  | ⟨3, _⟩ => show win4_3.index t (3 : Fin 4) * 28 + 1 * w.val = w.val; omega

/-- Entry (0, cc, h, w) of the block of the fifth array at point `t` is its entry (t / 2, 128 * (t % 2) + cc, h, w). -/
theorem block4_4_entry (c : Dev nD) (t : Fin cfg4.N) (b : Fin 1) (ch : Fin 128) (h w : Fin 28) :
    (iblk4 V c 4 t : Vec Ideal S1x128x28x28 .f32) (ix4 b ch h w)
      = (V c main_arg4 : S8x256x28x28.Idx → Elt Ideal .f32)
          (ix4 (batch4 t) (chunkChan (t.val % 2) (chunk4_lt t) ch) h w) := by
  obtain ⟨-, -, -, -, ⟨e0, e1, e2, e3⟩, -⟩ := idx4 t
  unfold iblk4
  rw [View.read_apply]
  show V c main_arg4 _ = V c main_arg4 _
  refine congrArg (V c main_arg4) ?_
  funext a; apply Fin.ext
  have hb : b.val < 1 := b.isLt
  match a with
  | ⟨0, _⟩ => show win4_4.index t (0 : Fin 4) * 1 + 1 * b.val = t.val / 2; omega
  | ⟨1, _⟩ => show win4_4.index t (1 : Fin 4) * 128 + 1 * ch.val = 128 * (t.val % 2) + ch.val; omega
  | ⟨2, _⟩ => show win4_4.index t (2 : Fin 4) * 28 + 1 * h.val = h.val; omega
  | ⟨3, _⟩ => show win4_4.index t (3 : Fin 4) * 28 + 1 * w.val = w.val; omega

/-- What point `t` writes back is its block of the combined whole array. -/
theorem flushed4 (c : Dev nD) (t : Fin cfg4.N) :
    (dat4 V c).flushed 5 t = ((cfg4.win 5).blk t).view.read (Elt Ideal)
      (combine (V c main_v0 : S8x128x28x28.Idx → EReal) (V c main_v1 : S8x64x28x28.Idx → EReal)
        (V c main_v2 : S8x32x28x28.Idx → EReal) (V c main_v3 : S8x16x28x28.Idx → EReal)
        (V c main_arg4 : S8x256x28x28.Idx → EReal) : S8x256x28x28.Idx → EReal) := by
  show (cfg4.win 5).cut (grid4.coords t) ((dat4 V c).after 5 t) = _
  rw [after4_5]
  unfold out4_5
  rw [View.canon_unit_zero zero_offsets4]
  simp only [View.ld_unit_zero (S := S1x128x28x28) zero_offsets4, View.ld_unit_zero (S := S1x64x28x28) zero_offsets4,
    View.ld_unit_zero (S := S1x32x28x28) zero_offsets4, View.ld_unit_zero (S := S1x16x28x28) zero_offsets4]
  rw [pay4]
  obtain ⟨-, -, -, -, -, ⟨e0, e1, e2, e3⟩⟩ := idx4 t
  funext j
  obtain ⟨b, cc, i, k, rfl⟩ : ∃ (b : Fin 1) (cc : Fin 128) (i k : Fin 28), j = ix4 b cc i k :=
    ⟨j 0, j 1, j 2, j 3, eq_ix4 j⟩
  show combine (iblk4 V c 0 t : Vec Ideal S1x128x28x28 .f32) (iblk4 V c 1 t : Vec Ideal S1x64x28x28 .f32)
      (iblk4 V c 2 t : Vec Ideal S1x32x28x28 .f32) (iblk4 V c 3 t : Vec Ideal S1x16x28x28 .f32)
      (iblk4 V c 4 t : Vec Ideal S1x128x28x28 .f32) (ix4 b cc i k)
    = combine (V c main_v0 : S8x128x28x28.Idx → EReal) (V c main_v1 : S8x64x28x28.Idx → EReal)
      (V c main_v2 : S8x32x28x28.Idx → EReal) (V c main_v3 : S8x16x28x28.Idx → EReal)
      (V c main_arg4 : S8x256x28x28.Idx → EReal) (((cfg4.win 5).blk t).view.emb (ix4 b cc i k))
  have hb : b.val < 1 := b.isLt
  have he : ((cfg4.win 5).blk t).view.emb (ix4 b cc i k)
      = (ix4 (batch4 t) (chunkChan (t.val % 2) (chunk4_lt t) cc) i k : S8x256x28x28.Idx) := by
    funext a; apply Fin.ext
    match a with
    | ⟨0, _⟩ => show win4_5.index t (0 : Fin 4) * 1 + 1 * b.val = t.val / 2; omega
    | ⟨1, _⟩ => show win4_5.index t (1 : Fin 4) * 128 + 1 * cc.val = 128 * (t.val % 2) + cc.val; omega
    | ⟨2, _⟩ => show win4_5.index t (2 : Fin 4) * 28 + 1 * i.val = i.val; omega
    | ⟨3, _⟩ => show win4_5.index t (3 : Fin 4) * 28 + 1 * k.val = k.val; omega
  rw [he]
  exact combine_block (iblk4 V c 0 t : Vec Ideal S1x128x28x28 .f32) (iblk4 V c 1 t : Vec Ideal S1x64x28x28 .f32)
    (iblk4 V c 2 t : Vec Ideal S1x32x28x28 .f32) (iblk4 V c 3 t : Vec Ideal S1x16x28x28 .f32)
    (iblk4 V c 4 t : Vec Ideal S1x128x28x28 .f32)
    (V c main_v0 : S8x128x28x28.Idx → EReal) (V c main_v1 : S8x64x28x28.Idx → EReal)
    (V c main_v2 : S8x32x28x28.Idx → EReal) (V c main_v3 : S8x16x28x28.Idx → EReal)
    (V c main_arg4 : S8x256x28x28.Idx → EReal)
    (batch4 t) (t.val % 2) (chunk4_lt t)
    (block4_0_entry V c t) (block4_1_entry V c t) (block4_2_entry V c t) (block4_3_entry V c t) (block4_4_entry V c t)
    b cc i k

/-- An index of the output array lies in the block of point `t` iff each coordinate lies in the block's range. -/
theorem mem_block4 (t : Fin cfg4.N) (i : S8x256x28x28.Idx) :
    i ∈ ((cfg4.win 5).blk t).view.set ↔ ∀ a : Fin 4, win4_5.index t a * S1x128x28x28.size a ≤ (i a).val
      ∧ (i a).val < win4_5.index t a * S1x128x28x28.size a + S1x128x28x28.size a := by
  show i ∈ ((View.whole main_v4).slice (win4_5.rect t)).set ↔ _
  rw [View.set_slice_whole, Rect.mem_set_unit]
  exact Iff.rfl

/-- The output array after the region: the five arrays combined.  Entry (b, ch, i, j) is covered by point
    `2 * b + ch / 128`. -/
theorem final_4 (c : Dev nD) : (dat4 V c).arrAt 5 cfg4.N
    = (combine (V c main_v0 : S8x128x28x28.Idx → EReal) (V c main_v1 : S8x64x28x28.Idx → EReal)
        (V c main_v2 : S8x32x28x28.Idx → EReal) (V c main_v3 : S8x16x28x28.Idx → EReal)
        (V c main_arg4 : S8x256x28x28.Idx → EReal) : S8x256x28x28.Idx → EReal) :=
  (dat4 V c).arrAt_eq_of_cover 5 _ (fun t _ => flushed4 V c t) (fun i => by
    have h0 : (i 0).val < 8 := (i 0).isLt
    have h1 : (i 1).val < 256 := (i 1).isLt
    have h2 : (i 2).val < 28 := (i 2).isLt
    have h3 : (i 3).val < 28 := (i 3).isLt
    have hN : 2 * (i 0).val + (i 1).val / 128 < cfg4.N := by rw [show cfg4.N = 16 from N_4]; omega
    refine ⟨⟨2 * (i 0).val + (i 1).val / 128, hN⟩, flush4_5 _, ?_⟩
    rw [mem_block4]
    obtain ⟨-, -, -, -, -, ⟨e0, e1, e2, e3⟩⟩ := idx4 ⟨2 * (i 0).val + (i 1).val / 128, hN⟩
    have e0 : win4_5.index ⟨2 * (i 0).val + (i 1).val / 128, hN⟩ (0 : Fin 4) = (2 * (i 0).val + (i 1).val / 128) / 2 := e0
    have e1 : win4_5.index ⟨2 * (i 0).val + (i 1).val / 128, hN⟩ (1 : Fin 4) = (2 * (i 0).val + (i 1).val / 128) % 2 := e1
    intro a
    match a with
    | ⟨0, _⟩ => show win4_5.index ⟨2 * (i 0).val + (i 1).val / 128, hN⟩ (0 : Fin 4) * 1 ≤ (i 0).val ∧ (i 0).val < win4_5.index ⟨2 * (i 0).val + (i 1).val / 128, hN⟩ (0 : Fin 4) * 1 + 1; rw [e0]; omega
    | ⟨1, _⟩ => show win4_5.index ⟨2 * (i 0).val + (i 1).val / 128, hN⟩ (1 : Fin 4) * 128 ≤ (i 1).val ∧ (i 1).val < win4_5.index ⟨2 * (i 0).val + (i 1).val / 128, hN⟩ (1 : Fin 4) * 128 + 128; rw [e1]; omega
    | ⟨2, _⟩ => show win4_5.index ⟨2 * (i 0).val + (i 1).val / 128, hN⟩ (2 : Fin 4) * 28 ≤ (i 2).val ∧ (i 2).val < win4_5.index ⟨2 * (i 0).val + (i 1).val / 128, hN⟩ (2 : Fin 4) * 28 + 28; rw [e2]; omega
    | ⟨3, _⟩ => show win4_5.index ⟨2 * (i 0).val + (i 1).val / 128, hN⟩ (3 : Fin 4) * 28 ≤ (i 3).val ∧ (i 3).val < win4_5.index ⟨2 * (i 0).val + (i 1).val / 128, hN⟩ (3 : Fin 4) * 28 + 28; rw [e3]; omega)

end Cert.PoolSum

end
-- ==== Proof.KernelRun.lean ====
/-
  The kernel program computes the specification.

  The program is five regions in a row over the buffers of one core.  Region K (K = 0 … 3) reads argument K and leaves,
  in its own result buffer, the pooled argument (window 2, 4, 8, 16); region 4 reads those four result buffers and the
  fifth argument and leaves the combined array in the program's result buffer.  No region writes a buffer that another
  region's input window reads later, except through its own output window.  So the contents of a buffer when a region
  is entered are found by walking the boundaries backwards: a region that does not own the buffer leaves it as it was;
  the region that owns it as an output leaves what its write-backs fold to; an argument is never written and walks back
  to the launch memory.

  Reading region 4's inputs this way gives the four pooled arguments and the fifth argument, and its output is their
  combination: the specification's value on the five argument arrays.
-/
import proofs.«124250_j26637387169835_1_alg».proof.Proof.ValueRun
import proofs.«124250_j26637387169835_1_alg».proof.Proof.Region0
import proofs.«124250_j26637387169835_1_alg».proof.Proof.Region1
import proofs.«124250_j26637387169835_1_alg».proof.Proof.Region2
import proofs.«124250_j26637387169835_1_alg».proof.Proof.Region3
import proofs.«124250_j26637387169835_1_alg».proof.Proof.Region4

set_option maxRecDepth 16384

noncomputable section

namespace Cert.PoolSum

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## Each region finds its argument as launched -/

/-- Region 1 is entered with the second argument as launched: region 0 does not touch it. -/
theorem entry1_arg1 (c : Dev nD) : V1 m ρ c main_arg1 = m ((c : Thread nD τ).loc main_arg1) :=
  (W1_of_ne m ρ c main_arg1 (by decide)).trans rfl

/-- Region 2 is entered with the third argument as launched. -/
theorem entry2_arg2 (c : Dev nD) : V2 m ρ c main_arg2 = m ((c : Thread nD τ).loc main_arg2) :=
  (W2_of_ne m ρ c main_arg2 (by decide)).trans ((W1_of_ne m ρ c main_arg2 (by decide)).trans rfl)

/-- Region 3 is entered with the fourth argument as launched. -/
theorem entry3_arg3 (c : Dev nD) : V3 m ρ c main_arg3 = m ((c : Thread nD τ).loc main_arg3) :=
  (W3_of_ne m ρ c main_arg3 (by decide)).trans
    ((W2_of_ne m ρ c main_arg3 (by decide)).trans ((W1_of_ne m ρ c main_arg3 (by decide)).trans rfl))

/-- Region 4 is entered with the fifth argument as launched. -/
theorem entry4_arg4 (c : Dev nD) : V4 m ρ c main_arg4 = m ((c : Thread nD τ).loc main_arg4) :=
  (W4_of_ne m ρ c main_arg4 (by decide)).trans
    ((W3_of_ne m ρ c main_arg4 (by decide)).trans
      ((W2_of_ne m ρ c main_arg4 (by decide)).trans ((W1_of_ne m ρ c main_arg4 (by decide)).trans rfl)))

/-! ## Region 4 finds the four pooled arguments -/

/-- The first pooled array, written by region 0 and untouched by regions 1 to 3. -/
theorem entry4_v0 (c : Dev nD) : V4 m ρ c main_v0
    = (pooled 2 28 28 (m ((c : Thread nD τ).loc main_arg0) : S8x128x56x56.Idx → EReal) : S8x128x28x28.Idx → EReal) :=
  (W4_of_ne m ρ c main_v0 (by decide)).trans
    ((W3_of_ne m ρ c main_v0 (by decide)).trans
      ((W2_of_ne m ρ c main_v0 (by decide)).trans ((W1_arr m ρ c 1).trans (final_0 (V0 m ρ) c))))

/-- The second pooled array, written by region 1 and untouched by regions 2 and 3. -/
theorem entry4_v1 (c : Dev nD) : V4 m ρ c main_v1
    = (pooled 4 28 28 (m ((c : Thread nD τ).loc main_arg1) : S8x64x112x112.Idx → EReal) : S8x64x28x28.Idx → EReal) :=
  (W4_of_ne m ρ c main_v1 (by decide)).trans
    ((W3_of_ne m ρ c main_v1 (by decide)).trans
      ((W2_arr m ρ c 1).trans ((final_1 (V1 m ρ) c).trans (by rw [entry1_arg1]))))

/-- The third pooled array, written by region 2 and untouched by region 3. -/
theorem entry4_v2 (c : Dev nD) : V4 m ρ c main_v2
    = (pooled 8 28 28 (m ((c : Thread nD τ).loc main_arg2) : S8x32x224x224.Idx → EReal) : S8x32x28x28.Idx → EReal) :=
  (W4_of_ne m ρ c main_v2 (by decide)).trans
    ((W3_arr m ρ c 1).trans ((final_2 (V2 m ρ) c).trans (by rw [entry2_arg2])))

/-- The fourth pooled array, written by region 3. -/
theorem entry4_v3 (c : Dev nD) : V4 m ρ c main_v3
    = (pooled 16 28 28 (m ((c : Thread nD τ).loc main_arg3) : S8x16x448x448.Idx → EReal) : S8x16x28x28.Idx → EReal) :=
  (W4_arr m ρ c 1).trans ((final_3 (V3 m ρ) c).trans (by rw [entry3_arg3]))

/-! ## The result buffer -/

/-- The result buffer at the last boundary is the specification's value on the five arguments as launched. -/
theorem result_eq (c : Dev nD) : W5 m ρ c (Proc.devRef .tc main_v4)
    = spec (m ((c : Thread nD τ).loc main_arg0)) (m ((c : Thread nD τ).loc main_arg1))
        (m ((c : Thread nD τ).loc main_arg2)) (m ((c : Thread nD τ).loc main_arg3))
        (m ((c : Thread nD τ).loc main_arg4)) := by
  refine (W5_arr m ρ c 5).trans ((final_4 (V4 m ρ) c).trans ?_)
  rw [entry4_v0, entry4_v1, entry4_v2, entry4_v3, entry4_arg4]
  rfl

/-- THE KERNEL'S RUN: every weakly fair execution terminates without fault, the result buffer ends at the
    specification's value on the argument arrays, and the arguments end as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v4)
          = Cert.PoolSum.spec (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := Ideal)) _ _).mono
    (fun r h c => ⟨(h c).1.trans (result_eq m ρ c), (h c).2⟩) (value_run (F := Ideal) m ρ)

end Cert.PoolSum

end
-- ==== Proof.LibWindowMax.lean ====
/-
  A strided window maximum is the supremum of its window.

  Two facts, general in the extents.  (1) A left fold of binary maxima over a list, started from `v`, is below `z`
  exactly when `v` and every term of the list are: the fold is known by its upper bounds, whatever the order of the
  list.  (2) For an array `x` of extents [B, C, H, W], the window reduction with window and stride (1, 1, k, k), no
  padding, binary maximum as its operation and the bottom element as its initial value, read at (b, c, i, j), has
  for upper bounds exactly the upper bounds of the entries x[b, c, h, w] with h / k = i and w / k = j: the window at
  (i, j) holds the places (i * k + p, j * k + q) with p, q < k, and those are the places whose quotients by k are
  i and j.  A place of the window outside the array contributes the bottom element, which bounds nothing.
-/
import Idealize.ShloMosaic.PureOps.Contract
import Idealize.ShloMosaic.Lib.ValueIdx

namespace Idealize.ShloMosaic

open Idealize.ShloMosaic.ValueIdx

/-- A left fold of maxima is below `z` iff its start and each of its terms are. -/
theorem foldl_max_le_iff {ι α : Type} [LinearOrder α] (g : ι → α) (l : List ι) (v z : α) :
    l.foldl (fun r n => max r (g n)) v ≤ z ↔ v ≤ z ∧ ∀ n ∈ l, g n ≤ z := by
  induction l generalizing v with
  | nil => simp
  | cons a l ih =>
    rw [List.foldl_cons, ih, max_le_iff]
    constructor
    · rintro ⟨⟨hv, ha⟩, hl⟩
      refine ⟨hv, fun n hn => ?_⟩
      rcases List.mem_cons.1 hn with rfl | hn
      · exact ha
      · exact hl n hn
    · rintro ⟨hv, hl⟩
      exact ⟨⟨hv, hl a (List.mem_cons_self)⟩, fun n hn => hl n (List.mem_cons_of_mem _ hn)⟩

/-- Coordinate `a` of the place inside a (1, 1, k, k) window that has row-major position `n`. -/
private abbrev winPlace (k : ℕ) (n : Fin (⟨4, ![1, 1, k, k]⟩ : Shape).numel) (a : Fin 4) : ℕ :=
  ((⟨4, ![1, 1, k, k]⟩ : Shape).rowMajor.symm n a).val

/-- The upper bounds of a (1, 1, k, k) window maximum with stride (1, 1, k, k) at (b, c, i, j): those of the entries
    in rows `h` and columns `w` with `h / k = i` and `w / k = j`. -/
theorem Host.reduceWindow_max_le_iff {B C H W H' W' : ℕ} {u : Shape} (k : ℕ) (hk : 0 < k)
    (f : EReal → EReal → EReal) (hf : ∀ a b, f a b = max a b)
    (x : (⟨4, ![B, C, H, W]⟩ : Shape).Idx → EReal) (init : u.Idx → EReal)
    (h : (⟨4, ![B, C, H, W]⟩ : Shape).ReduceWindows ![1, 1, k, k] ![1, 1, k, k] ![0, 0, 0, 0] ![0, 0, 0, 0]
      ⟨4, ![B, C, H', W']⟩)
    (hu : 0 < u.numel) (hinit : init (Shape.Idx.first hu) = ⊥)
    (b : Fin B) (c : Fin C) (i : Fin H') (j : Fin W') (z : EReal) :
    Host.reduceWindow f ![1, 1, k, k] ![1, 1, k, k] ![0, 0, 0, 0] ![0, 0, 0, 0] x init h hu (ix4 b c i j) ≤ z ↔
      ∀ (hh : Fin H) (w : Fin W), hh.val / k = i.val → w.val / k = j.val → x (ix4 b c hh w) ≤ z := by
  unfold Host.reduceWindow
  dsimp only
  simp only [hf]
  rw [foldl_max_le_iff, hinit]
  constructor
  · -- every entry of the block is a term of the fold: the one at the window place (0, 0, h % k, w % k)
    rintro ⟨-, hall⟩ hh w hhi hwj
    have hq2 : hh.val % k < k := Nat.mod_lt _ hk
    have hq3 : w.val % k < k := Nat.mod_lt _ hk
    have e2 : i.val * k + hh.val % k = hh.val := by
      have e := Nat.div_add_mod hh.val k
      rw [hhi, Nat.mul_comm] at e
      exact e
    have e3 : j.val * k + w.val % k = w.val := by
      have e := Nat.div_add_mod w.val k
      rw [hwj, Nat.mul_comm] at e
      exact e
    have hb := b.isLt
    have hc := c.isLt
    have hhl := hh.isLt
    have hwl := w.isLt
    have hn := hall ((⟨4, ![1, 1, k, k]⟩ : Shape).rowMajor
      (ix4 (⟨0, Nat.one_pos⟩ : Fin 1) (⟨0, Nat.one_pos⟩ : Fin 1) (⟨hh.val % k, hq2⟩ : Fin k) (⟨w.val % k, hq3⟩ : Fin k)))
      (List.mem_finRange _)
    simp only [Equiv.symm_apply_apply] at hn
    split at hn
    · refine le_of_eq_of_le (congrArg x (funext fun a => Fin.ext ?_)) hn
      match a with
      | ⟨0, _⟩ => show b.val = b.val * 1 + 0 - 0; omega
      | ⟨1, _⟩ => show c.val = c.val * 1 + 0 - 0; omega
      | ⟨2, _⟩ => show hh.val = i.val * k + hh.val % k - 0; omega
      | ⟨3, _⟩ => show w.val = j.val * k + w.val % k - 0; omega
    · next hnot =>
      refine absurd (fun a => ?_) hnot
      match a with
      | ⟨0, _⟩ => exact ⟨Nat.zero_le _, by show b.val * 1 + 0 - 0 < B; omega⟩
      | ⟨1, _⟩ => exact ⟨Nat.zero_le _, by show c.val * 1 + 0 - 0 < C; omega⟩
      | ⟨2, _⟩ => exact ⟨Nat.zero_le _, by show i.val * k + hh.val % k - 0 < H; omega⟩
      | ⟨3, _⟩ => exact ⟨Nat.zero_le _, by show j.val * k + w.val % k - 0 < W; omega⟩
  · -- every term of the fold is an entry of the block, or the bottom element
    intro hx
    refine ⟨bot_le, fun n _ => ?_⟩
    split
    · next hin =>
      have h0 : winPlace k n 0 < 1 := ((⟨4, ![1, 1, k, k]⟩ : Shape).rowMajor.symm n 0).isLt
      have h1 : winPlace k n 1 < 1 := ((⟨4, ![1, 1, k, k]⟩ : Shape).rowMajor.symm n 1).isLt
      have h2 : winPlace k n 2 < k := ((⟨4, ![1, 1, k, k]⟩ : Shape).rowMajor.symm n 2).isLt
      have h3 : winPlace k n 3 < k := ((⟨4, ![1, 1, k, k]⟩ : Shape).rowMajor.symm n 3).isLt
      have b2 : i.val * k + winPlace k n 2 - 0 < H := (hin 2).2
      have b3 : j.val * k + winPlace k n 3 - 0 < W := (hin 3).2
      have d2 : (i.val * k + winPlace k n 2) / k = i.val := by
        rw [Nat.mul_comm, Nat.mul_add_div hk, Nat.div_eq_of_lt h2, Nat.add_zero]
      have d3 : (j.val * k + winPlace k n 3) / k = j.val := by
        rw [Nat.mul_comm, Nat.mul_add_div hk, Nat.div_eq_of_lt h3, Nat.add_zero]
      have hle := hx ⟨i.val * k + winPlace k n 2, by omega⟩ ⟨j.val * k + winPlace k n 3, by omega⟩ d2 d3
      refine le_of_eq_of_le (congrArg x (funext fun a => Fin.ext ?_)) hle
      match a with
      | ⟨0, _⟩ => show b.val * 1 + winPlace k n 0 - 0 = b.val; omega
      | ⟨1, _⟩ => show c.val * 1 + winPlace k n 1 - 0 = c.val; omega
      | ⟨2, _⟩ => show i.val * k + winPlace k n 2 - 0 = i.val * k + winPlace k n 2; omega
      | ⟨3, _⟩ => show j.val * k + winPlace k n 3 - 0 = j.val * k + winPlace k n 3; omega
    · exact bot_le

end Idealize.ShloMosaic
-- ==== Proof.LibRowMajorRank8.lean ====
/-
  Row-major positions at rank 8.

  For an array of extents d0, ..., d7 the multi-index (i0, ..., i7) sits, in row-major order (last axis fastest), at
  position ((((((i0 * d1 + i1) * d2 + i2) * d3 + i3) * d4 + i4) * d5 + i5) * d6 + i6) * d7 + i7.  This is the
  rank-8 instance of the Horner form the library states up to rank 5; it is general in the extents.  A rank-8 index
  is also built from its eight coordinates, and every rank-8 index is of that form.
-/
import Idealize.ShloMosaic.Lib.ValueIdx

namespace Idealize.ShloMosaic

/-- Rank 8: the row-major position as one sum of products (Horner form in the extents). -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun k => match k with
    | ⟨0, _⟩ => a | ⟨1, _⟩ => b | ⟨2, _⟩ => c | ⟨3, _⟩ => d | ⟨4, _⟩ => e | ⟨5, _⟩ => f | ⟨6, _⟩ => g | ⟨7, _⟩ => h

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl
  | ⟨7, _⟩ => rfl

end ValueIdx

end Idealize.ShloMosaic
-- ==== Proof.LibChannelRepeat.lean ====
/-
  Repeating an array along its channel axis by reshape, repeat of a unit axis, reshape.

  An array `v` of extents [B, C, Y, X] is reshaped to [1, B, 1, C, 1, Y, 1, X], its unit axis 2 is repeated `r` times,
  and the result of extents [1, B, r, C, 1, Y, 1, X] is reshaped to [B, N, Y, X] with N = r * C.  Reshapes keep row-major
  positions.  The place (0, b, q, c, 0, y, 0, x) of the rank-8 array has position (((b * r + q) * C + c) * Y + y) * X + x
  and the place (b, ch, y, x) of the result has position ((b * N + ch) * Y + y) * X + x; since
  (b * r + ch / C) * C + ch % C = b * (r * C) + ch, the result at (b, ch, y, x) is the rank-8 array at q = ch / C,
  c = ch % C, which the repeat reads at q = 0, which is `v` at (b, ch % C, y, x): the result is `v` tiled `r` times
  along channels.  General in the extents.
-/
import proofs.«124250_j26637387169835_1_alg».proof.Proof.LibRowMajorRank8
import Idealize.ShloMosaic.Lib.ValueIdx
import Idealize.ShloMosaic.Lib.Pipeline.Value

namespace Idealize.ShloMosaic

open Idealize.ShloMosaic.ValueIdx

/-- Channel `ch` of the array repeated `r` times along channels reads channel `ch % C` of the `C`-channel array. -/
theorem channelRepeat_apply {α : Type} {B C r N Y X : ℕ} (hC : 0 < C) (hN : N = r * C)
    (v : (⟨4, ![B, C, Y, X]⟩ : Shape).Idx → α)
    (h1 : (⟨4, ![B, C, Y, X]⟩ : Shape).ShapeCasts ⟨8, ![1, B, 1, C, 1, Y, 1, X]⟩)
    (h2 : (⟨8, ![1, B, 1, C, 1, Y, 1, X]⟩ : Shape).BroadcastsInDim ⟨8, ![1, B, r, C, 1, Y, 1, X]⟩
      ![0, 1, 2, 3, 4, 5, 6, 7])
    (h3 : (⟨8, ![1, B, r, C, 1, Y, 1, X]⟩ : Shape).ShapeCasts ⟨4, ![B, N, Y, X]⟩)
    (b : Fin B) (ch : Fin N) (y : Fin Y) (x : Fin X) :
    shapeCast _ (broadcastInDim _ ![0, 1, 2, 3, 4, 5, 6, 7] h2 (shapeCast _ v h1)) h3 (ix4 b ch y x)
      = v (ix4 b ⟨ch.val % C, Nat.mod_lt _ hC⟩ y x) := by
  have hq : ch.val / C < r := (Nat.div_lt_iff_lt_mul hC).2 (by rw [← hN]; exact ch.isLt)
  have hc : ch.val % C < C := Nat.mod_lt _ hC
  -- the channel coordinate splits as quotient and remainder by C
  have e0 : ∀ p m : ℕ, (p * r + m / C) * C + m % C = p * (r * C) + m := by
    intro p m
    have hdm := Nat.div_add_mod m C
    rw [Nat.add_mul, Nat.mul_assoc, Nat.add_assoc, Nat.mul_comm (m / C) C, hdm]
  have e : (b.val * r + ch.val / C) * C + ch.val % C = b.val * N + ch.val :=
    (e0 b.val ch.val).trans (by rw [← hN])
  -- the outer reshape: [B, N, Y, X] at (b, ch, y, x) reads rank 8 at (0, b, ch / C, ch % C, 0, y, 0, x)
  refine (shapeCast_apply _ h3 (ix4 b ch y x)
    (ix8 (⟨0, Nat.one_pos⟩ : Fin 1) b (⟨ch.val / C, hq⟩ : Fin r) (⟨ch.val % C, hc⟩ : Fin C)
      (⟨0, Nat.one_pos⟩ : Fin 1) y (⟨0, Nat.one_pos⟩ : Fin 1) x) ?_).trans ?_
  · rw [Shape.rowMajor_val_eight, Shape.rowMajor_val_four]
    show ((((((0 * B + b.val) * r + ch.val / C) * C + ch.val % C) * 1 + 0) * Y + y.val) * 1 + 0) * X + x.val
      = ((b.val * N + ch.val) * Y + y.val) * X + x.val
    simp only [Nat.zero_mul, Nat.zero_add, Nat.mul_one, Nat.add_zero, e]
  -- the repeat forgets the coordinate on axis 2
  refine (broadcastInDim_apply _ h2 _ _
    (ix8 (⟨0, Nat.one_pos⟩ : Fin 1) b (⟨0, Nat.one_pos⟩ : Fin 1) (⟨ch.val % C, hc⟩ : Fin C)
      (⟨0, Nat.one_pos⟩ : Fin 1) y (⟨0, Nat.one_pos⟩ : Fin 1) x) (fun a => ?_)).trans ?_
  · match a with
    | ⟨0, _⟩ => show 0 = if (1 : ℕ) = 1 then 0 else 0; rw [if_pos rfl]
    | ⟨1, _⟩ =>
      show b.val = if B = 1 then 0 else b.val
      by_cases hB : B = 1
      · have := b.isLt
        rw [if_pos hB]; omega
      · rw [if_neg hB]
    | ⟨2, _⟩ => show 0 = if (1 : ℕ) = 1 then 0 else ch.val / C; rw [if_pos rfl]
    | ⟨3, _⟩ =>
      show ch.val % C = if C = 1 then 0 else ch.val % C
      by_cases hC1 : C = 1
      · rw [if_pos hC1, hC1, Nat.mod_one]
      · rw [if_neg hC1]
    | ⟨4, _⟩ => show 0 = if (1 : ℕ) = 1 then 0 else 0; rw [if_pos rfl]
    | ⟨5, _⟩ =>
      show y.val = if Y = 1 then 0 else y.val
      by_cases hY : Y = 1
      · have := y.isLt
        rw [if_pos hY]; omega
      · rw [if_neg hY]
    | ⟨6, _⟩ => show 0 = if (1 : ℕ) = 1 then 0 else 0; rw [if_pos rfl]
    | ⟨7, _⟩ =>
      show x.val = if X = 1 then 0 else x.val
      by_cases hX : X = 1
      · have := x.isLt
        rw [if_pos hX]; omega
      · rw [if_neg hX]
  -- the inner reshape: rank 8 at (0, b, 0, c, 0, y, 0, x) reads [B, C, Y, X] at (b, c, y, x)
  refine shapeCast_apply v h1 _ (ix4 b ⟨ch.val % C, hc⟩ y x) ?_
  rw [Shape.rowMajor_val_four, Shape.rowMajor_val_eight]
  show ((b.val * C + ch.val % C) * Y + y.val) * X + x.val
    = ((((((0 * B + b.val) * 1 + 0) * C + ch.val % C) * 1 + 0) * Y + y.val) * 1 + 0) * X + x.val
  simp only [Nat.zero_mul, Nat.zero_add, Nat.mul_one, Nat.add_zero]

end Idealize.ShloMosaic
-- ==== Proof.RefSpec.lean ====
/-
  The reference computes the specification.

  The reference takes four window maxima (windows and strides 2, 4, 8, 16 on the last two axes, started from the
  bottom element), repeats each along the channel axis up to 256 channels by a reshape to rank 8, a repeat of a unit
  axis and a reshape back to rank 4, adds the four results in order, adds the fifth argument, and takes the maximum
  with zero.  Read at (b, ch, y, x):

  * the repeated array at channel ch is the C-channel array at channel ch % C (reshapes keep row-major positions, and
    (b * r + ch / C) * C + ch % C = b * 256 + ch when r * C = 256);
  * a window maximum started from the bottom element has the upper bounds of its window, and the window at (y, x) with
    window and stride k holds the rows h and columns w with h / k = y and w / k = x: it is the block maximum of the
    specification;
  * the word 0xFF800000 is the bottom element and the word 0x00000000 is zero.
-/
import proofs.«124250_j26637387169835_1_alg».proof.Proof.Gen.ReferenceIdeal.Read
import proofs.«124250_j26637387169835_1_alg».proof.Proof.Spec
import proofs.«124250_j26637387169835_1_alg».proof.Proof.LibWindowMax
import proofs.«124250_j26637387169835_1_alg».proof.Proof.LibChannelRepeat
import Idealize.ShloMosaic.Lib.ValueIdx
import Idealize.ShloMosaic.Lib.Pipeline.Value
import Idealize.ShloMosaic.PureOps.Ideal.Laws

noncomputable section

namespace Cert.PoolSum

open Idealize.ShloMosaic Idealize.ShloMosaic.ValueIdx Cert.ReferenceIdeal Cert.ReferenceIdeal.Read

/-- The word 0xFF800000 is minus infinity, the bottom element of the extended reals. -/
theorem neg_inf_word : (FloatOps.ofBits .f32 0xFF800000#32 : Ideal .f32) = ⊥ := by
  show Ideal.ofBits .f32 0xFF800000#32 = ⊥
  simp [Ideal.ofBits, Ideal.ieee]

/-! ## The four initial values are the bottom element -/

theorem init2_bot : val_main_v0 (F := Ideal) (Shape.Idx.first Facts₀.h_S_) = ⊥ := by
  rw [val_main_v0_apply, val_main_cst_apply]
  exact neg_inf_word

theorem init4_bot : val_main_v5 (F := Ideal) (Shape.Idx.first Facts₀.h_S_) = ⊥ := by
  rw [val_main_v5_apply, val_main_cst_0_apply]
  exact neg_inf_word

theorem init8_bot : val_main_v10 (F := Ideal) (Shape.Idx.first Facts₀.h_S_) = ⊥ := by
  rw [val_main_v10_apply, val_main_cst_1_apply]
  exact neg_inf_word

theorem init16_bot : val_main_v15 (F := Ideal) (Shape.Idx.first Facts₀.h_S_) = ⊥ := by
  rw [val_main_v15_apply, val_main_cst_2_apply]
  exact neg_inf_word

/-! ## The four window maxima are the block maxima of the specification -/

theorem window2_eq (x0 : (⟨S8x128x56x56, .f32⟩ : BufTy).Contents (Elt Ideal)) (b : Fin 8) (c : Fin 128) (y x : Fin 28) :
    val_main_v1 (F := Ideal) x0 (ix4 b c y x) = pool 2 x0 b c y.val x.val := by
  unfold val_main_v1
  exact eq_pool_of_le_iff 2 x0 b c y.val x.val _ fun z =>
    Host.reduceWindow_max_le_iff 2 (by norm_num) _ (fun _ _ => rfl) x0 _ _ _ init2_bot b c y x z

theorem window4_eq (x1 : (⟨S8x64x112x112, .f32⟩ : BufTy).Contents (Elt Ideal)) (b : Fin 8) (c : Fin 64) (y x : Fin 28) :
    val_main_v6 (F := Ideal) x1 (ix4 b c y x) = pool 4 x1 b c y.val x.val := by
  unfold val_main_v6
  exact eq_pool_of_le_iff 4 x1 b c y.val x.val _ fun z =>
    Host.reduceWindow_max_le_iff 4 (by norm_num) _ (fun _ _ => rfl) x1 _ _ _ init4_bot b c y x z

theorem window8_eq (x2 : (⟨S8x32x224x224, .f32⟩ : BufTy).Contents (Elt Ideal)) (b : Fin 8) (c : Fin 32) (y x : Fin 28) :
    val_main_v11 (F := Ideal) x2 (ix4 b c y x) = pool 8 x2 b c y.val x.val := by
  unfold val_main_v11
  exact eq_pool_of_le_iff 8 x2 b c y.val x.val _ fun z =>
    Host.reduceWindow_max_le_iff 8 (by norm_num) _ (fun _ _ => rfl) x2 _ _ _ init8_bot b c y x z

theorem window16_eq (x3 : (⟨S8x16x448x448, .f32⟩ : BufTy).Contents (Elt Ideal)) (b : Fin 8) (c : Fin 16) (y x : Fin 28) :
    val_main_v16 (F := Ideal) x3 (ix4 b c y x) = pool 16 x3 b c y.val x.val := by
  unfold val_main_v16
  exact eq_pool_of_le_iff 16 x3 b c y.val x.val _ fun z =>
    Host.reduceWindow_max_le_iff 16 (by norm_num) _ (fun _ _ => rfl) x3 _ _ _ init16_bot b c y x z

/-! ## The four repeats along channels read channel `ch % C` -/

theorem repeat128_eq (x0 : (⟨S8x128x56x56, .f32⟩ : BufTy).Contents (Elt Ideal)) (b : Fin 8) (ch : Fin 256) (y x : Fin 28) :
    val_main_v4 (F := Ideal) x0 (ix4 b ch y x) = val_main_v1 (F := Ideal) x0 (ix4 b (chan 128 (by norm_num) ch) y x) := by
  unfold val_main_v4 val_main_v3 val_main_v2
  exact channelRepeat_apply (by norm_num) (by norm_num) _ _ _ _ b ch y x

theorem repeat64_eq (x1 : (⟨S8x64x112x112, .f32⟩ : BufTy).Contents (Elt Ideal)) (b : Fin 8) (ch : Fin 256) (y x : Fin 28) :
    val_main_v9 (F := Ideal) x1 (ix4 b ch y x) = val_main_v6 (F := Ideal) x1 (ix4 b (chan 64 (by norm_num) ch) y x) := by
  unfold val_main_v9 val_main_v8 val_main_v7
  exact channelRepeat_apply (by norm_num) (by norm_num) _ _ _ _ b ch y x

theorem repeat32_eq (x2 : (⟨S8x32x224x224, .f32⟩ : BufTy).Contents (Elt Ideal)) (b : Fin 8) (ch : Fin 256) (y x : Fin 28) :
    val_main_v14 (F := Ideal) x2 (ix4 b ch y x) = val_main_v11 (F := Ideal) x2 (ix4 b (chan 32 (by norm_num) ch) y x) := by
  unfold val_main_v14 val_main_v13 val_main_v12
  exact channelRepeat_apply (by norm_num) (by norm_num) _ _ _ _ b ch y x

theorem repeat16_eq (x3 : (⟨S8x16x448x448, .f32⟩ : BufTy).Contents (Elt Ideal)) (b : Fin 8) (ch : Fin 256) (y x : Fin 28) :
    val_main_v19 (F := Ideal) x3 (ix4 b ch y x) = val_main_v16 (F := Ideal) x3 (ix4 b (chan 16 (by norm_num) ch) y x) := by
  unfold val_main_v19 val_main_v18 val_main_v17
  exact channelRepeat_apply (by norm_num) (by norm_num) _ _ _ _ b ch y x

/-! ## The whole reference -/

/-- The reference's result is the specification's. -/
theorem ref_eq (x0 : (⟨S8x128x56x56, .f32⟩ : BufTy).Contents (Elt Ideal)) (x1 : (⟨S8x64x112x112, .f32⟩ : BufTy).Contents (Elt Ideal))
    (x2 : (⟨S8x32x224x224, .f32⟩ : BufTy).Contents (Elt Ideal)) (x3 : (⟨S8x16x448x448, .f32⟩ : BufTy).Contents (Elt Ideal))
    (x4 : (⟨S8x256x28x28, .f32⟩ : BufTy).Contents (Elt Ideal)) :
    Cert.ReferenceIdeal.Read.val_main_v24 (F := Ideal) x0 x1 x2 x3 x4 = Cert.PoolSum.spec x0 x1 x2 x3 x4 := by
  funext q
  obtain ⟨b, ch, y, x, rfl⟩ : ∃ (b : Fin 8) (ch : Fin 256) (y x : Fin 28), q = ix4 b ch y x :=
    ⟨q 0, q 1, q 2, q 3, eq_ix4 q⟩
  rw [val_main_v24_apply, val_main_v23_apply, val_main_v22_apply, val_main_v21_apply, val_main_v20_apply,
    repeat128_eq, repeat64_eq, repeat32_eq, repeat16_eq, window2_eq, window4_eq, window8_eq, window16_eq,
    val_main_call0_v0_apply, val_main_call0_cst_apply]
  show max (pool 2 x0 b (chan 128 (by norm_num) ch) y.val x.val + pool 4 x1 b (chan 64 (by norm_num) ch) y.val x.val
      + pool 8 x2 b (chan 32 (by norm_num) ch) y.val x.val + pool 16 x3 b (chan 16 (by norm_num) ch) y.val x.val
      + x4 (ix4 b ch y x)) (Ideal.ofBits .f32 0x00000000#32) = _
  rw [Ideal.ofBits_zero_f32]
  rfl

end Cert.PoolSum

end
-- ==== Proof.lean ====
/-
  The kernel program and its reference compute one function of their five arguments.

  Over the extended reals the kernel program pools four arrays with windows 2, 4, 8 and 16 (each window maximum taken
  by repeated pairwise maxima along the last axis, then along the rows), lays the pooled arrays end to end along
  the channel axis up to 256 channels, adds them and the fifth argument in a fixed order and clamps the sum below at
  zero; the reference takes each window maximum as one fold from the bottom element over the window, repeats the pooled
  arrays by reshaping and broadcasting, and adds and clamps in the same order. A maximum is determined by its upper
  bounds, so both window maxima are the least upper bound of the window, whatever the bracketing (`Cert.PoolSum.pool`);
  channel `ch` of a repeated array reads channel `ch % n` on both sides; the additions are the same terms in the same
  order, so no law of addition is used and nothing is asked of the inputs' finiteness.

  `Cert.PoolSum.kernel_run` states the kernel program's run with its result at `Cert.PoolSum.spec` of the arguments,
  `Cert.PoolSum.ref_eq` that the reference's result term is the same function. The three frame claims are the runs
  themselves with the result forgotten; the idealization rewrote no operation, so its claim is trivial.
-/
import proofs.«124250_j26637387169835_1_alg».proof.Defs
import proofs.«124250_j26637387169835_1_alg».proof.Proof.Gen.Kernel
import proofs.«124250_j26637387169835_1_alg».proof.Proof.Gen.Kernel.Skeleton
import proofs.«124250_j26637387169835_1_alg».proof.Proof.Gen.Kernel.Launch
import proofs.«124250_j26637387169835_1_alg».proof.Proof.Gen.Kernel.Points
import proofs.«124250_j26637387169835_1_alg».proof.Proof.Gen.Kernel.Frame
import proofs.«124250_j26637387169835_1_alg».proof.Proof.Gen.KernelIdeal
import proofs.«124250_j26637387169835_1_alg».proof.Proof.Gen.KernelIdeal.Skeleton
import proofs.«124250_j26637387169835_1_alg».proof.Proof.Gen.KernelIdeal.Launch
import proofs.«124250_j26637387169835_1_alg».proof.Proof.Gen.KernelIdeal.Points
import proofs.«124250_j26637387169835_1_alg».proof.Proof.Gen.KernelIdeal.Frame
import proofs.«124250_j26637387169835_1_alg».proof.Proof.Gen.ReferenceIdeal
import proofs.«124250_j26637387169835_1_alg».proof.Proof.Gen.ReferenceIdeal.Run
import proofs.«124250_j26637387169835_1_alg».proof.Proof.Gen.ReferenceIdeal.Read
import proofs.«124250_j26637387169835_1_alg».proof.Proof.Gen.Pre_finite_inputs
import proofs.«124250_j26637387169835_1_alg».proof.Proof.KernelRun
import proofs.«124250_j26637387169835_1_alg».proof.Proof.RefSpec
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts]
  [hPre : Cert.Pre_finite_inputs.Facts]

/-- The reference's frame: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at `Cert.PoolSum.spec` of the
    arguments. -/
theorem algebraic : Cert.algebraic_KernelIdeal_ReferenceIdeal := by
  intro m ρ m' ρ' _ hagree
  refine ⟨_, Cert.PoolSum.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.PoolSum.ref_eq, (hagree c).1, (hagree c).2.1, (hagree c).2.2.1,
    (hagree c).2.2.2.1, (hagree c).2.2.2.2]

end

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_reference, trivial, algebraic⟩

end Cert.Proof

end
